-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x49152 : S_.BroadcastsInDim S1024x49152 (![] : Fin 0 → Fin S1024x49152.rank)
  reducesTo_S1024x49152_S_d0_1 : S1024x49152.ReducesTo [0, 1] S_
  bcast_S_S49152 : S_.BroadcastsInDim S49152 (![] : Fin 0 → Fin S49152.rank)
  reducesTo_S49152_S_d0 : S49152.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S49152 1) : IVec S_ 1 :=
  let main_c_5 : IVec S_ 1 := constantI S_ 1 1#1
  let main_v17 : IVec S_ 1 := (fun x v => Host.reduce IntOp.andi x v reducesTo_S49152_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x4096x64 .f32) (main_arg1 : FVec F S64x1024 .f32) (main_arg2 : FVec F S1024x49152 .f32) (main_arg3 : FVec F S49152 .f32) (main_arg4 : FVec F S64 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x49152 .f32 := Host.absf main_arg2
  let main_cst_2 : FVec F S_ .f32 := constant S_ .f32 0x7F800000#32
  let main_v10 : FVec F S1024x49152 .f32 := broadcastInDim S1024x49152 ![] bcast_S_S1024x49152 main_cst_2
  let main_v11 : IVec S1024x49152 1 := cmpf .olt main_v9 main_v10
  let main_c_3 : IVec S_ 1 := constantI S_ 1 1#1
  let main_v12 : IVec S_ 1 := (fun x v => Host.reduce IntOp.andi x v reducesTo_S1024x49152_S_d0_1 h_S_) main_v11 main_c_3
  let main_v13 : IVec S_ 1 := andi main_v8 main_v12
  let main_v14 : FVec F S49152 .f32 := Host.absf main_arg3
  let main_cst_4 : FVec F S_ .f32 := constant S_ .f32 0x7F800000#32
  let main_v15 : FVec F S49152 .f32 := broadcastInDim S49152 ![] bcast_S_S49152 main_cst_4
  let main_v16 : IVec S49152 1 := cmpf .olt main_v14 main_v15
  fn_part1 (F := F) main_arg4 main_v13 main_v16
-- ==== Kernel.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S1x49152 : Shape := ⟨2, ![1, 49152]⟩
abbrev S64x49152 : Shape := ⟨2, ![64, 49152]⟩
abbrev S1024x1024 : Shape := ⟨2, ![1024, 1024]⟩
abbrev S1x1024 : Shape := ⟨2, ![1, 1024]⟩
abbrev S64x16384 : Shape := ⟨2, ![64, 16384]⟩
abbrev S64x64x256 : Shape := ⟨3, ![64, 64, 256]⟩
abbrev S64x256x64 : Shape := ⟨3, ![64, 256, 64]⟩
abbrev S1x64 : Shape := ⟨2, ![1, 64]⟩
abbrev S1x2048x64 : Shape := ⟨3, ![1, 2048, 64]⟩
abbrev S1x64x256 : Shape := ⟨3, ![1, 64, 256]⟩
abbrev S1x256x64 : Shape := ⟨3, ![1, 256, 64]⟩
abbrev S64x512 : Shape := ⟨2, ![64, 512]⟩
abbrev S256x64 : Shape := ⟨2, ![256, 64]⟩
abbrev S64x256 : Shape := ⟨2, ![64, 256]⟩
abbrev S256 : Shape := ⟨1, ![256]⟩
abbrev S1x256 : Shape := ⟨2, ![1, 256]⟩
abbrev S2048x64 : Shape := ⟨2, ![2048, 64]⟩
abbrev S2048 : Shape := ⟨1, ![2048]⟩
abbrev S2048x1 : Shape := ⟨2, ![2048, 1]⟩
abbrev S2048x512 : Shape := ⟨2, ![2048, 512]⟩
abbrev S2048x256 : Shape := ⟨2, ![2048, 256]⟩

abbrev nBuf : Space → Nat
  | .hbm => 15
  | .vmem => 20
  | .smem => 0
  | _ => 0

abbrev bufTy : (tb : Table) → Fin (tcTables nBuf tb) → BufTy
  | .hbm, ⟨0, _⟩ => ⟨S64x4096x64, .f32⟩
  | .hbm, ⟨1, _⟩ => ⟨S64x1024, .f32⟩
  | .hbm, ⟨2, _⟩ => ⟨S1024x49152, .f32⟩
  | .hbm, ⟨3, _⟩ => ⟨S49152, .f32⟩
  | .hbm, ⟨4, _⟩ => ⟨S64, .f32⟩
  | .hbm, ⟨5, _⟩ => ⟨S1x49152, .f32⟩
  | .hbm, ⟨6, _⟩ => ⟨S64x49152, .f32⟩
  | .hbm, ⟨7, _⟩ => ⟨S64x16384, .f32⟩
  | .hbm, ⟨8, _⟩ => ⟨S64x64x256, .f32⟩
  | .hbm, ⟨9, _⟩ => ⟨S64x16384, .f32⟩
  | .hbm, ⟨10, _⟩ => ⟨S64x64x256, .f32⟩
  | .hbm, ⟨11, _⟩ => ⟨S64x16384, .f32⟩
  | .hbm, ⟨12, _⟩ => ⟨S64x256x64, .f32⟩
  | .hbm, ⟨13, _⟩ => ⟨S1x64, .f32⟩
  | .hbm, ⟨14, _⟩ => ⟨S64x4096x64, .f32⟩
  | .local _ .vmem, ⟨0, _⟩ => ⟨S64x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S64x1024, .f32⟩
  | .local _ .vmem, ⟨6, _⟩ => ⟨S64x1024, .f32⟩
  | .local _ .vmem, ⟨7, _⟩ => ⟨S1x2048x64, .f32⟩
  | .local _ .vmem, ⟨8, _⟩ => ⟨S1x2048x64, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x256x64, .f32⟩
  | .local _ .vmem, ⟨14, _⟩ => ⟨S1x256x64, .f32⟩
  | .local _ .vmem, ⟨15, _⟩ => ⟨S1x64, .f32⟩
  | .local _ .vmem, ⟨16, _⟩ => ⟨S1x2048x64, .f32⟩
  | .local _ .vmem, ⟨17, _⟩ => ⟨S1x2048x64, .f32⟩
  | .local _ .vmem, ⟨18, _⟩ => ⟨S64x512, .bf16⟩
  | .local _ .vmem, ⟨19, _⟩ => ⟨S256x64, .bf16⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S49152_S1x49152 : S49152.ShapeCasts S1x49152
  inb_S64x1024_S64x1024_0_0 : ∀ a, (![0, 0] : Fin 2 → Nat) a + S64x1024.size a ≤ S64x1024.size a
  h_S64x1024 : 0 < S64x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  slices_S64x49152_S64x16384_0_0 : S64x49152.Slices ![0, 0] S64x16384
  shapeCasts_S64x16384_S64x64x256 : S64x16384.ShapeCasts S64x64x256
  slices_S64x49152_S64x16384_0_16384 : S64x49152.Slices ![0, 16384] S64x16384
  slices_S64x49152_S64x16384_0_32768 : S64x49152.Slices ![0, 32768] S64x16384
  shapeCasts_S64x16384_S64x256x64 : S64x16384.ShapeCasts S64x256x64
  shapeCasts_S64_S1x64 : S64.ShapeCasts S1x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S64x256_S256 : S64x256.Reduces [0] S256
  shapeCasts_S256_S1x256 : S256.ShapeCasts S1x256
  broadcasts_S1x256_S64x256 : S1x256.Broadcasts S64x256
  inb_S64x512_S64x256_0_0 : ∀ a, (![0, 0] : Fin 2 → Nat) a + S64x256.size a ≤ S64x512.size a
  h_S64x256 : 0 < S64x256.numel
  shapeCasts_S64x256_S64x256 : S64x256.ShapeCasts S64x256
  packedbf16_S64x512_S64x256_0_0 : (Rect.unit (s := S64x512) ![0, 0] S64x256.size inb_S64x512_S64x256_0_0).PackedRows (EltTy.packing .bf16)
  inb_S64x512_S64x256_0_256 : ∀ a, (![0, 256] : Fin 2 → Nat) a + S64x256.size a ≤ S64x512.size a
  packedbf16_S64x512_S64x256_0_256 : (Rect.unit (s := S64x512) ![0, 256] S64x256.size inb_S64x512_S64x256_0_256).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  reduces_S256x64_S64 : S256x64.Reduces [0] S64
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  packedbf16_S256x64_S256x64_0_0 : (Rect.unit (s := S256x64) ![0, 0] S256x64.size inb_S256x64_S256x64_0_0).PackedRows (EltTy.packing .bf16)
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x512_S64x512_0_0 : ∀ a, (![0, 0] : Fin 2 → Nat) a + S64x512.size a ≤ S64x512.size a
  h_S64x512 : 0 < S64x512.numel
  slices_S2048x512_o0_0_S2048x256 : S2048x512.Slices ![0, 0] S2048x256
  slices_S2048x512_o0_256_S2048x256 : S2048x512.Slices ![0, 256] S2048x256
  shapeCasts_S2048x64_S1x2048x64 : S2048x64.ShapeCasts S1x2048x64
  dot_S64x1024_S1024x1024_S64x1024_1_0_0_1_n_n_wf : DotDims.WF S64x1024 S1024x1024 S64x1024 [1] [0] [0] [1] [] []
  dot_S2048x64_S64x512_S2048x512_1_0_0_1_n_n_wf : DotDims.WF S2048x64 S64x512 S2048x512 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x49152.size a
  hwx0_1 : ∀ i : grid0.Coords, EltTy.bits .f32 = 32 ∨ (Rect.block (s := S1024x49152) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x49152.size a
  hwx0_2 : ∀ i : grid0.Coords, EltTy.bits .f32 = 32 ∨ (Rect.block (s := S1x49152) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x49152.size a
  hwx0_3 : ∀ i : grid0.Coords, EltTy.bits .f32 = 32 ∨ (Rect.block (s := S64x49152) S64x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S64x4096x64.size a
  hwx1_0 : ∀ i : grid1.Coords, EltTy.bits .f32 = 32 ∨ (Rect.block (s := S64x4096x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256.size a ≤ S64x64x256.size a
  hwx1_1 : ∀ i : grid1.Coords, EltTy.bits .f32 = 32 ∨ (Rect.block (s := S64x64x256) S1x64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x256.size a ≤ S64x64x256.size a
  hwx1_2 : ∀ i : grid1.Coords, EltTy.bits .f32 = 32 ∨ (Rect.block (s := S64x64x256) S1x64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S64x256x64.size a
  hwx1_3 : ∀ i : grid1.Coords, EltTy.bits .f32 = 32 ∨ (Rect.block (s := S64x256x64) S1x256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x64.size a ≤ S64x4096x64.size a
  hwx1_5 : ∀ i : grid1.Coords, EltTy.bits .f32 = 32 ∨ (Rect.block (s := S64x4096x64) S1x2048x64.size (cc1_transform_5 i) (hinb1_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x4096x64 : Shape := ⟨3, ![64, 4096, 64]⟩
abbrev S64x1024 : Shape := ⟨2, ![64, 1024]⟩
abbrev S1024x49152 : Shape := ⟨2, ![1024, 49152]⟩
abbrev S49152 : Shape := ⟨1, ![49152]⟩
abbrev S64 : Shape := ⟨1, ![64]⟩
abbrev S64x49152 : Shape := ⟨2, ![64, 49152]⟩
abbrev S1x49152 : Shape := ⟨2, ![1, 49152]⟩
abbrev S64x16384 : Shape := ⟨2, ![64, 16384]⟩
abbrev S64x64x256 : Shape := ⟨3, ![64, 64, 256]⟩
abbrev S_ : Shape := ⟨0, ![]⟩
abbrev S64x256 : Shape := ⟨2, ![64, 256]⟩
abbrev S64x1x256 : Shape := ⟨3, ![64, 1, 256]⟩
abbrev S64x256x64 : Shape := ⟨3, ![64, 256, 64]⟩
abbrev S64x64 : Shape := ⟨2, ![64, 64]⟩
abbrev S64x1x64 : Shape := ⟨3, ![64, 1, 64]⟩
abbrev S64x4096 : Shape := ⟨2, ![64, 4096]⟩
abbrev S64x4096x1 : Shape := ⟨3, ![64, 4096, 1]⟩
abbrev S1x1x64 : Shape := ⟨3, ![1, 1, 64]⟩
abbrev S64x4096x256 : Shape := ⟨3, ![64, 4096, 256]⟩

abbrev nBuf : Space → Nat
  | .hbm => 75
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x1024, .f32⟩
  | .hbm, ⟨2, _⟩ => ⟨S1024x49152, .f32⟩
  | .hbm, ⟨3, _⟩ => ⟨S49152, .f32⟩
  | .hbm, ⟨4, _⟩ => ⟨S64, .f32⟩
  | .hbm, ⟨5, _⟩ => ⟨S64x49152, .f32⟩
  | .hbm, ⟨6, _⟩ => ⟨S1x49152, .f32⟩
  | .hbm, ⟨7, _⟩ => ⟨S64x49152, .f32⟩
  | .hbm, ⟨8, _⟩ => ⟨S64x49152, .f32⟩
  | .hbm, ⟨9, _⟩ => ⟨S64x16384, .f32⟩
  | .hbm, ⟨10, _⟩ => ⟨S64x16384, .f32⟩
  | .hbm, ⟨11, _⟩ => ⟨S64x16384, .f32⟩
  | .hbm, ⟨12, _⟩ => ⟨S64x64x256, .f32⟩
  | .hbm, ⟨13, _⟩ => ⟨S64x64x256, .f32⟩
  | .hbm, ⟨14, _⟩ => ⟨S_, .f32⟩
  | .hbm, ⟨15, _⟩ => ⟨S64x256, .f32⟩
  | .hbm, ⟨16, _⟩ => ⟨S64x1x256, .f32⟩
  | .hbm, ⟨17, _⟩ => ⟨S64x1x256, .f32⟩
  | .hbm, ⟨18, _⟩ => ⟨S_, .f32⟩
  | .hbm, ⟨19, _⟩ => ⟨S64x1x256, .f32⟩
  | .hbm, ⟨20, _⟩ => ⟨S64x1x256, .f32⟩
  | .hbm, ⟨21, _⟩ => ⟨S64x64x256, .f32⟩
  | .hbm, ⟨22, _⟩ => ⟨S64x64x256, .f32⟩
  | .hbm, ⟨23, _⟩ => ⟨S64x64x256, .f32⟩
  | .hbm, ⟨24, _⟩ => ⟨S64x64x256, .f32⟩
  | .hbm, ⟨25, _⟩ => ⟨S_, .f32⟩
  | .hbm, ⟨26, _⟩ => ⟨S64x256, .f32⟩
  | .hbm, ⟨27, _⟩ => ⟨S64x1x256, .f32⟩
  | .hbm, ⟨28, _⟩ => ⟨S64x1x256, .f32⟩
  | .hbm, ⟨29, _⟩ => ⟨S_, .f32⟩
  | .hbm, ⟨30, _⟩ => ⟨S64x1x256, .f32⟩
  | .hbm, ⟨31, _⟩ => ⟨S64x1x256, .f32⟩
  | .hbm, ⟨32, _⟩ => ⟨S64x64x256, .f32⟩
  | .hbm, ⟨33, _⟩ => ⟨S64x64x256, .f32⟩
  | .hbm, ⟨34, _⟩ => ⟨S64x256x64, .f32⟩
  | .hbm, ⟨35, _⟩ => ⟨S64x256x64, .f32⟩
  | .hbm, ⟨36, _⟩ => ⟨S_, .f32⟩
  | .hbm, ⟨37, _⟩ => ⟨S64x64, .f32⟩
  | .hbm, ⟨38, _⟩ => ⟨S64x1x64, .f32⟩
  | .hbm, ⟨39, _⟩ => ⟨S64x1x64, .f32⟩
  | .hbm, ⟨40, _⟩ => ⟨S_, .f32⟩
  | .hbm, ⟨41, _⟩ => ⟨S64x1x64, .f32⟩
  | .hbm, ⟨42, _⟩ => ⟨S64x1x64, .f32⟩
  | .hbm, ⟨43, _⟩ => ⟨S64x256x64, .f32⟩
  | .hbm, ⟨44, _⟩ => ⟨S64x256x64, .f32⟩
  | .hbm, ⟨45, _⟩ => ⟨S64x4096x64, .f32⟩
  | .hbm, ⟨46, _⟩ => ⟨S_, .f32⟩
  | .hbm, ⟨47, _⟩ => ⟨S64x4096, .f32⟩
  | .hbm, ⟨48, _⟩ => ⟨S64x4096x1, .f32⟩
  | .hbm, ⟨49, _⟩ => ⟨S_, .f32⟩
  | .hbm, ⟨50, _⟩ => ⟨S64x4096x1, .f32⟩
  | .hbm, ⟨51, _⟩ => ⟨S64x4096x1, .f32⟩
  | .hbm, ⟨52, _⟩ => ⟨S_, .f32⟩
  | .hbm, ⟨53, _⟩ => ⟨S64x4096x1, .f32⟩
  | .hbm, ⟨54, _⟩ => ⟨S64x4096x1, .f32⟩
  | .hbm, ⟨55, _⟩ => ⟨S64x4096x1, .f32⟩
  | .hbm, ⟨56, _⟩ => ⟨S64x4096x64, .f32⟩
  | .hbm, ⟨57, _⟩ => ⟨S64x4096x64, .f32⟩
  | .hbm, ⟨58, _⟩ => ⟨S1x1x64, .f32⟩
  | .hbm, ⟨59, _⟩ => ⟨S64x4096x64, .f32⟩
  | .hbm, ⟨60, _⟩ => ⟨S64x4096x64, .f32⟩
  | .hbm, ⟨61, _⟩ => ⟨S64x4096x256, .f32⟩
  | .hbm, ⟨62, _⟩ => ⟨S64x4096x256, .f32⟩
  | .hbm, ⟨63, _⟩ => ⟨S64x4096x256, .f32⟩
  | .hbm, ⟨64, _⟩ => ⟨S64x4096x256, .f32⟩
  | .hbm, ⟨65, _⟩ => ⟨S_, .f32⟩
  | .hbm, ⟨66, _⟩ => ⟨S64x4096x256, .f32⟩
  | .hbm, ⟨67, _⟩ => ⟨S64x4096x256, .f32⟩
  | .hbm, ⟨68, _⟩ => ⟨S_, .f32⟩
  | .hbm, ⟨69, _⟩ => ⟨S64x4096x256, .f32⟩
  | .hbm, ⟨70, _⟩ => ⟨S64x4096x256, .f32⟩
  | .hbm, ⟨71, _⟩ => ⟨S64x4096x256, .f32⟩
  | .hbm, ⟨72, _⟩ => ⟨S64x4096x256, .f32⟩
  | .hbm, ⟨73, _⟩ => ⟨S64x4096x64, .f32⟩
  | .hbm, ⟨74, _⟩ => ⟨S64x4096x64, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  bcast_S49152_S1x49152_1 : S49152.BroadcastsInDim S1x49152 (![1] : Fin 1 → Fin S1x49152.rank)
  bcast_S1x49152_S64x49152_0_1 : S1x49152.BroadcastsInDim S64x49152 (![0, 1] : Fin 2 → Fin S64x49152.rank)
  slices_S64x49152_S64x16384_0_0 : S64x49152.Slices ![0, 0] S64x16384
  slices_S64x49152_S64x16384_0_16384 : S64x49152.Slices ![0, 16384] S64x16384
  slices_S64x49152_S64x16384_0_32768 : S64x49152.Slices ![0, 32768] S64x16384
  shapeCasts_S64x16384_S64x64x256 : S64x16384.ShapeCasts S64x64x256
  reducesTo_S64x64x256_S64x256_d1 : S64x64x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x1x256_S64x64x256_0_1_2 : S64x1x256.BroadcastsInDim S64x64x256 (![0, 1, 2] : Fin 3 → Fin S64x64x256.rank)
  shapeCasts_S64x16384_S64x256x64 : S64x16384.ShapeCasts S64x256x64
  reducesTo_S64x256x64_S64x64_d1 : S64x256x64.ReducesTo [1] S64x64
  bcast_S64x64_S64x1x64_0_2 : S64x64.BroadcastsInDim S64x1x64 (![0, 2] : Fin 2 → Fin S64x1x64.rank)
  bcast_S_S64x1x64 : S_.BroadcastsInDim S64x1x64 (![] : Fin 0 → Fin S64x1x64.rank)
  bcast_S64x1x64_S64x256x64_0_1_2 : S64x1x64.BroadcastsInDim S64x256x64 (![0, 1, 2] : Fin 3 → Fin S64x256x64.rank)
  reducesTo_S64x4096x64_S64x4096_d2 : S64x4096x64.ReducesTo [2] S64x4096
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x64_0_1_2 : S64x4096x1.BroadcastsInDim S64x4096x64 (![0, 1, 2] : Fin 3 → Fin S64x4096x64.rank)
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  bcast_S_S64x4096x256 : S_.BroadcastsInDim S64x4096x256 (![] : Fin 0 → Fin S64x4096x256.rank)
  dot_S64x1024_S1024x49152_S64x49152_1_0_0_1_n_n_wf : DotDims.WF S64x1024 S1024x49152 S64x49152 [1] [0] [0] [1] [] []
  dot_S64x4096x64_S64x64x256_S64x4096x256_2_1_1_2_0_0_wf : DotDims.WF S64x4096x64 S64x64x256 S64x4096x256 [2] [1] [1] [2] [0] [0]
  dot_S64x4096x256_S64x256x64_S64x4096x64_2_1_1_2_0_0_wf : DotDims.WF S64x4096x256 S64x256x64 S64x4096x64 [2] [1] [1] [2] [0] [0]

variable [Facts₀]

def dot_S64x1024_S1024x49152_S64x49152_1_0_0_1_n_n : DotDims S64x1024 S1024x49152 S64x49152 where
  lhsContracting := [1]
  rhsContracting := [0]
  lhsNonContracting := [0]
  rhsNonContracting := [1]
  lhsBatch := []
  rhsBatch := []
  wf := dot_S64x1024_S1024x49152_S64x49152_1_0_0_1_n_n_wf
def dot_S64x4096x64_S64x64x256_S64x4096x256_2_1_1_2_0_0 : DotDims S64x4096x64 S64x64x256 S64x4096x256 where
  lhsContracting := [2]
  rhsContracting := [1]
  lhsNonContracting := [1]
  rhsNonContracting := [2]
  lhsBatch := [0]
  rhsBatch := [0]
  wf := dot_S64x4096x64_S64x64x256_S64x4096x256_2_1_1_2_0_0_wf
def dot_S64x4096x256_S64x256x64_S64x4096x64_2_1_1_2_0_0 : DotDims S64x4096x256 S64x256x64 S64x4096x64 where
  lhsContracting := [2]
  rhsContracting := [1]
  lhsNonContracting := [1]
  rhsNonContracting := [2]
  lhsBatch := [0]
  rhsBatch := [0]
  wf := dot_S64x4096x256_S64x256x64_S64x4096x64_2_1_1_2_0_0_wf

class Facts : Prop extends Facts₀ where

variable [Facts]
-- ==== Proof.K.R0.lean ====
/-
  Region 0 of @main (the hypernetwork product): at every one of the 48 grid points the body reads the whole
  [64, 1024] block of s, one [1024, 1024] column slab of W and the matching [1, 1024] slab of the bias, and stores
  s·W_slab + bias_slab into the matching [64, 1024] column slab of the result. Nothing is carried between points.
  Stated at any float instance and at a parameter V, the buffer contents when the region is entered.
-/
import proofs.«136581_j63823214019112_2_alg».proof.Proof.Gen.Kernel.Launch
import proofs.«136581_j63823214019112_2_alg».proof.Proof.Gen.Kernel.Skeleton
import proofs.«136581_j63823214019112_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S64x1024 := Rect.unit (s := S64x1024) ![0, 0] S64x1024.size inb_S64x1024_S64x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- What the body leaves in the result window's staging buffer, from the three input blocks: its one whole store. -/
def out0_3 (x0 : Vec F S64x1024 .f32) (x1 : Vec F S1024x1024 .f32) (x2 : Vec F S1x1024 .f32) : Vec F S64x1024 .f32 :=
  View.canon [⟨r0_0, k0_pay1 (View.ld x0 r0_0) (View.ld x1 r0_1) (View.ld x2 r0_2)⟩]

/-- The proof data of pipeline 0 on core c: the arrays as the region finds them; after the body each input's
    buffer at its block and the result's at out0_3 of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows' buffers hold their blocks -/

/-- An input window's current staging buffer holds its block at every point, whether the pipeline fetched it there
    or not: where it did not, the block index has not moved since the last fetch and the body left the block in place.
    Window 0 (the whole of s) is fetched once, at the first point; windows 1 and 2 at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The one store covers the result's buffer -/

/-- The body's single store writes the whole [64, 1024] buffer, so every index of it lies in the stored rectangle. -/
theorem cover0_3 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-! ## The body's triple -/

set_option maxHeartbeats 1000000 in
/-- The body on whole staging memrefs, the three inputs' at contents x0, x1, x2 and the result's at anything, runs to
    the continuation with the inputs' as they were and the result's at out0_3 x0 x1 x2: three whole loads, a fourth
    whose value is dropped, one whole store. -/
theorem sound_kernel0 (c : Dev nD) (E : Set ℕ) (i : grid0.Coords)
    (arg1 : Memref sig .tc .vmem S64x1024 .f32) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S64x1024 .f32) (harg4 : arg4.IsWhole)
    (x0 : Vec F S64x1024 .f32) (x1 : Vec F S1024x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__hyper_kernel i arg1 harg1 arg2 harg2 arg3 harg3 arg4 harg4) K := by
  simp only [cc0__hyper_kernel_eq_skeleton]; unfold cc0__hyper_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t: the class invariant, the core's debts, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of @main (the per-batch gated MLP): the grid is 64 batches × 2 row tiles, the tile index innermost. At
  the first tile of a batch the body normalises the batch's three weight blocks column by column (each column
  divided by the larger of its Euclidean norm and a small constant) and keeps them in two scratch buffers: gate and
  value side by side as one [64, 512] buffer, the output projection as a [256, 64] buffer. At every tile it
  RMS-normalises the tile's 2048 rows of x, multiplies by the kept gate|value buffer, forms
  gate · logistic(gate) · value, multiplies by the kept projection and adds x back. The scratch buffers are
  carried from the first tile of a batch to the second. Stated at any float instance and at a parameter V, the
  buffer contents when the region is entered.
-/
import proofs.«136581_j63823214019112_2_alg».proof.Proof.Gen.Kernel.Launch
import proofs.«136581_j63823214019112_2_alg».proof.Proof.Gen.Kernel.Skeleton
import proofs.«136581_j63823214019112_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x2048x64 := Rect.unit (s := S1x2048x64) ![0, 0, 0] S1x2048x64.size inb_S1x2048x64_S1x2048x64_0_0_0
abbrev r1_1 : Rect S1x64x256 := Rect.unit (s := S1x64x256) ![0, 0, 0] S1x64x256.size inb_S1x64x256_S1x64x256_0_0_0
abbrev r1_3 : Rect S1x256x64 := Rect.unit (s := S1x256x64) ![0, 0, 0] S1x256x64.size inb_S1x256x64_S1x256x64_0_0_0
abbrev r1_4 : Rect S1x64 := Rect.unit (s := S1x64) ![0, 0] S1x64.size inb_S1x64_S1x64_0_0
/-- The gate half, the value half and the whole of the [64, 512] scratch; the whole of the [256, 64] scratch. -/
abbrev rG : Rect S64x512 := Rect.unit (s := S64x512) ![0, 0] S64x256.size inb_S64x512_S64x256_0_0
abbrev rV : Rect S64x512 := Rect.unit (s := S64x512) ![0, 256] S64x256.size inb_S64x512_S64x256_0_256
abbrev rGV : Rect S64x512 := Rect.unit (s := S64x512) ![0, 0] S64x512.size inb_S64x512_S64x512_0_0
abbrev rP : Rect S256x64 := Rect.unit (s := S256x64) ![0, 0] S256x64.size inb_S256x64_S256x64_0_0

/-- The [64, 512] scratch after the first tile of a batch: the normalised gate block in columns 0–255, the
    normalised value block in columns 256–511 (two slab stores, the later one first). -/
def gv1 (x1 x2 : Vec F S1x64x256 .f32) : Vec F S64x512 .bf16 :=
  View.canon [⟨rV, k1_pay4 (View.ld x2 r1_1)⟩, ⟨rG, k1_pay3 (View.ld x1 r1_1)⟩]

/-- The [256, 64] scratch after the first tile of a batch: the normalised projection block (one whole store). -/
def fn1 (x3 : Vec F S1x256x64 .f32) : Vec F S256x64 .bf16 :=
  View.canon [⟨rP, k1_pay1 (k1_pay5 (View.ld x3 r1_3))⟩]

/-- What the body leaves in the result window's staging buffer, from the tile of x, the scale row and the two
    scratch buffers as it finds them after its first-tile branch: its one whole store. -/
def out1_5 (x0 : Vec F S1x2048x64 .f32) (x4 : Vec F S1x64 .f32) (s0 : Vec F S64x512 .bf16) (s1 : Vec F S256x64 .bf16) :
    Vec F S1x2048x64 .f32 :=
  View.canon [⟨r1_0, k1_pay2 (View.ld x0 r1_0) (View.ld x4 r1_4) (View.ld s0 rGV) (View.ld s1 rP)⟩]

/-- What the two scratch buffers hold after the body at position n: recomputed from the point's weight blocks at a
    first tile (n even), kept from the point before at a second tile (n odd). -/
def scrAt1 (c : Dev nD) : (n : ℕ) → n < cfg1.N → Vec F S64x512 .bf16 × Vec F S256x64 .bf16
  | 0, hn => (gv1 (iblk1 V c 1 ⟨0, hn⟩) (iblk1 V c 2 ⟨0, hn⟩), fn1 (iblk1 V c 3 ⟨0, hn⟩))
  | n + 1, hn =>
    if (n + 1) % 2 = 0 then (gv1 (iblk1 V c 1 ⟨n + 1, hn⟩) (iblk1 V c 2 ⟨n + 1, hn⟩), fn1 (iblk1 V c 3 ⟨n + 1, hn⟩))
    else scrAt1 c n (Nat.lt_of_succ_lt hn)

theorem scrAt1_even (c : Dev nD) (t : Fin cfg1.N) (h : t.val % 2 = 0) :
    scrAt1 V c t.val t.isLt = (gv1 (iblk1 V c 1 t) (iblk1 V c 2 t), fn1 (iblk1 V c 3 t)) := by
  obtain ⟨n, hn⟩ := t
  cases n with
  | zero => exact rfl
  | succ n => exact (if_pos h).trans rfl

theorem scrAt1_odd (c : Dev nD) (t : Fin cfg1.N) (h : ¬ t.val % 2 = 0) :
    scrAt1 V c t.val t.isLt = scrAt1 V c (t.val - 1) (Nat.lt_of_le_of_lt (Nat.sub_le _ _) t.isLt) := by
  obtain ⟨n, hn⟩ := t
  cases n with
  | zero => exact absurd (Nat.zero_mod _) h
  | succ n => exact (if_neg h).trans rfl

/-- The two scratch buffers as whole memrefs. -/
abbrev scM0 : Memref sig .tc .vmem S64x512 .bf16 := Memref.whole cc1_scratch0
abbrev scM1 : Memref sig .tc .vmem S256x64 .bf16 := Memref.whole cc1_scratch1

/-- The scoped buffers of the core that are neither a staging buffer of this region nor one of its two scratch
    buffers (the other region's seven staging buffers), each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position n: before the first point the class invariant (every scoped buffer no
    window stages at anything, the generator register at some state); afterwards the same with the two scratch
    buffers at what the point before left in them. -/
def Phi1 (c : Dev nD) : (n : ℕ) → n ≤ cfg1.N → sProp 𝕄
  | 0, _ => Pipeline.ΦA spec1 c
  | n + 1, hn => iprop(otherScoped (F := F) c
      ∗ owns (c : Thread nD τ) scM0 fullShare ((scrAt1 V c n hn).1)
      ∗ owns (c : Thread nD τ) scM1 fullShare ((scrAt1 V c n hn).2)
      ∗ (∃ r, prngReg c r))

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 4 t) (scrAt1 V c t.val t.isLt).1 (scrAt1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 4 t) (scrAt1 V c t.val t.isLt).1 (scrAt1 V c t.val t.isLt).2 := by
  dsimp only [dat1]

/-! ## What the body finds in the input windows' staging buffers -/

/-- An input window's current staging buffer holds the window's block at every point, whether the pipeline fetched
    it there or not: where it did not, the block index has not moved since the point before, and the body leaves the
    buffer as it found it. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The branch on the tile index -/

/-- The condition of the body's one branch, from the grid coordinates: the tile index is 0. -/
abbrev cond1 (i : grid1.Coords) : Prop :=
  (Scalar.cmpi .ne (Scalar.extui (Scalar.cmpi .eq (BitVec.ofNat 32 (i 1).val) 0#32)) 0#32) = 1#1
/-- The tile index being innermost of two tiles, it holds exactly at the even points (decided over the grid). -/
theorem hcond1 : ∀ t : Fin cfg1.N, cond1 (grid1.coords t) ↔ t.val % 2 = 0 :=
  (by decide +kernel : ∀ t : Fin grid1.N, cond1 (grid1.coords t) ↔ t.val % 2 = 0)

/-! ## The class invariant with the scratch buffers named -/

/-- The class invariant hands out the two scratch buffers as whole memrefs at some contents, beside the other
    region's staging buffers and the generator register, -/
theorem PhiA1_split (c : Dev nD) : (Pipeline.ΦA spec1 c : sProp 𝕄)
    ⊢ iprop(otherScoped (F := F) c ∗ (∃ d, owns (c : Thread nD τ) scM0 fullShare d) ∗ (∃ d, owns (c : Thread nD τ) scM1 fullShare d)
        ∗ (∃ r, prngReg c r)) := by
  unfold Pipeline.ΦA otherScoped; rw [scopedRest1_eq]; simp only [scM0, scM1, owns_whole]
  iintro ⟨⟨H1, H2, H3, H4, H5, H6, H7, S0, S1⟩, Hg⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [S0]; · iexact S0
  isplitl [S1]; · iexact S1
  iexact Hg

/-- and takes them back at any contents. -/
theorem PhiA1_join (c : Dev nD) :
    iprop(otherScoped (F := F) c ∗ (∃ d, owns (c : Thread nD τ) scM0 fullShare d) ∗ (∃ d, owns (c : Thread nD τ) scM1 fullShare d)
        ∗ (∃ r, prngReg c r)) ⊢ (Pipeline.ΦA spec1 c : sProp 𝕄) := by
  unfold Pipeline.ΦA otherScoped; rw [scopedRest1_eq]; simp only [scM0, scM1, owns_whole]
  iintro ⟨⟨H1, H2, H3, H4, H5, H6, H7⟩, S0, S1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  iexact Hg

/-! ## The stores cover the buffers they fill -/

/-- The one whole store into the result window's staging buffer covers it. -/
theorem cover1_5 (p0 : Vec F S1x2048x64 .f32) (y : S1x2048x64.Idx) :
    ∃ pc ∈ ([⟨r1_0, p0⟩] : List (View.Piece (Elt F) S1x2048x64 .f32)), y ∈ pc.1.set :=
  View.cover_of_tiled [⟨r1_0, p0⟩] S1x2048x64.size (by rfl) y

/-- The two column slabs (columns 256–511, columns 0–255) tile the [64, 512] scratch, so they cover it. -/
theorem coverGV (p0 p1 : Vec F S64x256 .bf16) (y : S64x512.Idx) :
    ∃ pc ∈ ([⟨rV, p0⟩, ⟨rG, p1⟩] : List (View.Piece (Elt F) S64x512 .bf16)), y ∈ pc.1.set :=
  View.cover_of_tiledL [⟨rV, p0⟩, ⟨rG, p1⟩] S64x256.size (by sl_kernel_rfl) y

/-- The one whole store into the [256, 64] scratch covers it. -/
theorem coverP (p0 : Vec F S256x64 .bf16) (y : S256x64.Idx) :
    ∃ pc ∈ ([⟨rP, p0⟩] : List (View.Piece (Elt F) S256x64 .bf16)), y ∈ pc.1.set :=
  View.cover_of_tiled [⟨rP, p0⟩] S256x64.size (by rfl) y

/-! ## The body's two triples -/

set_option maxHeartbeats 4000000 in
/-- FIRST TILE of a batch (the branch taken). On whole memrefs — the five inputs' at read contents, the result's and
    the two scratch buffers' at anything — the body runs to the continuation holding the inputs' as they were, the
    [64, 512] scratch at the normalised gate and value blocks side by side, the [256, 64] scratch at the normalised
    projection block, and the result's buffer at what the tile computes from x, the scale row and those two. The
    whole loads of the scratch buffers that follow the slab stores read the stores' canonical contents back. -/
theorem sound_first (c : Dev nD) (E : Set ℕ) (i : grid1.Coords) (hc : cond1 i)
    (arg2 : Memref sig .tc .vmem S1x2048x64 .f32) (harg2 : arg2.IsWhole) (arg3 : Memref sig .tc .vmem S1x64x256 .f32) (harg3 : arg3.IsWhole)
    (arg4 : Memref sig .tc .vmem S1x64x256 .f32) (harg4 : arg4.IsWhole) (arg5 : Memref sig .tc .vmem S1x256x64 .f32) (harg5 : arg5.IsWhole)
    (arg6 : Memref sig .tc .vmem S1x64 .f32) (harg6 : arg6.IsWhole) (arg7 : Memref sig .tc .vmem S1x2048x64 .f32) (harg7 : arg7.IsWhole)
    (arg8 : Memref sig .tc .vmem S64x512 .bf16) (harg8 : arg8.IsWhole) (arg9 : Memref sig .tc .vmem S256x64 .bf16) (harg9 : arg9.IsWhole)
    (x0 : Vec F S1x2048x64 .f32) (x1 x2 : Vec F S1x64x256 .f32) (x3 : Vec F S1x256x64 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x4 (gv1 x1 x2) (fn1 x3))
            ∗ owns (c : Thread nD τ) arg8 fullShare (gv1 x1 x2) ∗ owns (c : Thread nD τ) arg9 fullShare (fn1 x3)) -∗ K ⟨⟩))
      ⊢ wp frame (wpE (defs₀ (F := F)) Variants.none c none) E (cc1__glu_kernel i arg2 harg2 arg3 harg3 arg4 harg4 arg5 harg5 arg6 harg6 arg7 harg7 arg8 harg8 arg9 harg9) K := by
  simp only [cc1__glu_kernel_eq_skeleton]; unfold cc1__glu_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  subst hf0; subst hf1; subst hf2; subst hf3; subst hf4
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_eq_canon _ _ _ (cover1_5 _)).trans ?_
    unfold out1_5 gv1 fn1
    rw [View.readCov_eq_canon', View.readCov_eq_canon']
    rfl
  isplitl [H8]
  · iexists _; isplitr
    swap; · iexact H8
    ipureintro
    exact View.read_writes_eq_canon _ _ _ (coverGV _ _)
  iexists _; isplitr
  swap; · iexact H9
  ipureintro
  exact View.read_writes_eq_canon _ _ _ (coverP _)

set_option maxHeartbeats 4000000 in
/-- SECOND TILE of a batch (the branch not taken). The weight windows' buffers are not touched; the two scratch
    buffers are read whole at the contents they are found at and left so; the result's buffer ends at what the tile
    computes from x, the scale row and those contents. -/
theorem sound_second (c : Dev nD) (E : Set ℕ) (i : grid1.Coords) (hc : ¬ cond1 i)
    (arg2 : Memref sig .tc .vmem S1x2048x64 .f32) (harg2 : arg2.IsWhole) (arg3 : Memref sig .tc .vmem S1x64x256 .f32) (harg3 : arg3.IsWhole)
    (arg4 : Memref sig .tc .vmem S1x64x256 .f32) (harg4 : arg4.IsWhole) (arg5 : Memref sig .tc .vmem S1x256x64 .f32) (harg5 : arg5.IsWhole)
    (arg6 : Memref sig .tc .vmem S1x64 .f32) (harg6 : arg6.IsWhole) (arg7 : Memref sig .tc .vmem S1x2048x64 .f32) (harg7 : arg7.IsWhole)
    (arg8 : Memref sig .tc .vmem S64x512 .bf16) (harg8 : arg8.IsWhole) (arg9 : Memref sig .tc .vmem S256x64 .bf16) (harg9 : arg9.IsWhole)
    (x0 : Vec F S1x2048x64 .f32) (x4 : Vec F S1x64 .f32) (s0 : Vec F S64x512 .bf16) (s1 : Vec F S256x64 .bf16) (K : PUnit → sProp 𝕄) :
    iprop(owns (c : Thread nD τ) arg2 fullShare x0 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg6 fullShare x4
            ∗ owns (c : Thread nD τ) arg7 fullShare (out1_5 x0 x4 s0 s1)
            ∗ owns (c : Thread nD τ) arg8 fullShare s0 ∗ owns (c : Thread nD τ) arg9 fullShare s1) -∗ K ⟨⟩))
      ⊢ wp frame (wpE (defs₀ (F := F)) Variants.none c none) E (cc1__glu_kernel i arg2 harg2 arg3 harg3 arg4 harg4 arg5 harg5 arg6 harg6 arg7 harg7 arg8 harg8 arg9 harg9) K := by
  simp only [cc1__glu_kernel_eq_skeleton]; unfold cc1__glu_kernel_skel
  unfold owns
  iintro ⟨⟨%f0, %hf0, H0⟩, ⟨%f4, %hf4, H4⟩, ⟨%d7, %f7, -, H7⟩, ⟨%f8, %hf8, H8⟩, ⟨%f9, %hf9, H9⟩, Hk⟩
  subst hf0; subst hf4; subst hf8; subst hf9
  sl_exec (disch := exact hc)
  sl_step
  iapply Hk
  sl_unfold_run_names
  isplitl [H0]
  · iexists f0; isplitr; · ipureintro; rfl
    iexact H0
  isplitl [H4]
  · iexists f4; isplitr; · ipureintro; rfl
    iexact H4
  isplitl [H7]
  · iexists _; isplitr
    swap; · iexact H7
    ipureintro
    exact View.read_writes_eq_canon _ _ _ (cover1_5 _)
  isplitl [H8]
  · iexists f8; isplitr; · ipureintro; rfl
    iexact H8
  iexists f9; isplitr; · ipureintro; rfl
  iexact H9

/-! ## The invariant, point by point -/

/-- After point n (before point n + 1) the two scratch buffers hold what that point left. -/
theorem Phi1_succ (c : Dev nD) (n : ℕ) (hn : n < cfg1.N) :
    Phi1 V c (n + 1) hn = iprop(otherScoped (F := F) c
      ∗ owns (c : Thread nD τ) scM0 fullShare ((scrAt1 V c n hn).1)
      ∗ owns (c : Thread nD τ) scM1 fullShare ((scrAt1 V c n hn).2)
      ∗ (∃ r, prngReg c r)) := rfl

/-- Before a point that is not the first they hold what the point before left. -/
theorem Phi1_pos (c : Dev nD) (n : ℕ) (h : n ≤ cfg1.N) (hz : n ≠ 0) :
    Phi1 V c n h = iprop(otherScoped (F := F) c
      ∗ owns (c : Thread nD τ) scM0 fullShare ((scrAt1 V c (n - 1) (by omega)).1)
      ∗ owns (c : Thread nD τ) scM1 fullShare ((scrAt1 V c (n - 1) (by omega)).2)
      ∗ (∃ r, prngReg c r)) := by
  cases n with
  | zero => exact absurd rfl hz
  | succ n => rfl

/-- Before any point the invariant holds the two scratch buffers whole at SOME contents, beside the other region's
    staging buffers and the generator register: all a first tile needs, and all the region's exit needs. -/
theorem Phi1_any (c : Dev nD) (n : ℕ) (h : n ≤ cfg1.N) :
    Phi1 V c n h ⊢ iprop(otherScoped (F := F) c ∗ (∃ d, owns (c : Thread nD τ) scM0 fullShare d)
      ∗ (∃ d, owns (c : Thread nD τ) scM1 fullShare d) ∗ (∃ r, prngReg c r)) := by
  cases n with
  | zero => exact PhiA1_split c
  | succ n =>
    rw [Phi1_succ]
    iintro ⟨Ho, HS0, HS1, Hg⟩
    isplitl [Ho]; · iexact Ho
    isplitl [HS0]; · iexists _; iexact HS0
    isplitl [HS1]; · iexists _; iexact HS1
    iexact Hg

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point t: the invariant, the core's owed waits, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point. The inputs' memrefs hold their blocks; the closed form of the branch condition says
    which tile the point is. At a first tile the invariant gives the scratch buffers at some contents and takes them
    back at the contents computed from the point's weight blocks; at a second tile (never the first point) it gives
    them at what the point before left and takes them back unchanged. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) t.isLt from rfl, Phi1_succ, Phi1_castSucc,
    after1_0, after1_1, after1_2, after1_3, after1_4, after1_5]
  by_cases h0 : t.val % 2 = 0
  · rw [scrAt1_even V c t h0]
    dsimp only
    iintro ⟨HΦ, Ho, ⟨%d0, H0⟩, ⟨%d1, H1⟩, ⟨%d2, H2⟩, ⟨%d3, H3⟩, ⟨%d4, H4⟩, ⟨%d5, H5⟩⟩
    ihave HΦ' := (Phi1_any V c t.val (Nat.le_of_lt t.isLt)) $$ HΦ
    icases HΦ' with ⟨Hoth, HS0, HS1, Hg⟩
    iapply (sound_first c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [scrAt1_odd V c t h0, Phi1_pos V c _ _ hz]
    iintro ⟨⟨Hoth, HS0, HS1, Hg⟩, Ho, ⟨%d0, H0⟩, ⟨%d1, H1⟩, ⟨%d2, H2⟩, ⟨%d3, H3⟩, ⟨%d4, H4⟩, ⟨%d5, H5⟩⟩
    iapply (sound_second c Set.univ (grid1.coords t) (fun h => h0 ((hcond1 t).mp h)) _ _ _ _ _ _ _ _ _ _ _ _ _ _ _ _
      (iblk1 V c 0 t) (iblk1 V c 4 t) _ _ _)
    isplitl [H0]; · iexact H0
    isplitl [H4]; · iexact H4
    isplitl [H5]; · iexists _; iexact H5
    isplitl [HS0]; · iexact HS0
    isplitl [HS1]; · iexact HS1
    iintro ⟨H0, H4, H5, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _

/-- After the last point the invariant gives the class invariant back: the scratch buffers' contents are forgotten. -/
theorem hout1 (c : Dev nD) : (dat1 V c).Φ (Fin.last cfg1.N) ⊢ (Pipeline.ΦA spec1 c : sProp 𝕄) := by
  rw [show (dat1 V c).Φ (Fin.last cfg1.N)
    = Phi1 V c (Fin.last cfg1.N).val (Nat.le_of_lt_succ (Fin.last cfg1.N).isLt) from rfl]
  exact (Phi1_any V c _ _).trans (PhiA1_join c)

end Cert.Kernel.Hand

end
-- ==== Proof.K.Run.lean ====
/-
  The whole run of @main: a reshape of the bias; region 0; three column slices of its result, each reshaped into
  a weight array, and a reshape of the scale; region 1. Between two of these items every buffer of the core that
  outlives a region holds a definite array, obtained from the launch memory by folding the items in order: a host
  operation writes its result, a region leaves each of its windows' arrays at what its write-backs fold to and
  every other buffer alone. Read at the end, the last of these valuations gives the result array as region 1's
  final array of its output window, and each argument array as launched (no host operation writes one; a region
  reads one through an input window, which never changes its array, or does not touch it).
-/
import proofs.«136581_j63823214019112_2_alg».proof.Proof.Gen.Kernel.Launch
import proofs.«136581_j63823214019112_2_alg».proof.Proof.Gen.Kernel.Skeleton
import proofs.«136581_j63823214019112_2_alg».proof.Proof.Gen.Kernel.Points
import proofs.«136581_j63823214019112_2_alg».proof.Proof.Gen.Kernel.Regions
import proofs.«136581_j63823214019112_2_alg».proof.Proof.K.R0
import proofs.«136581_j63823214019112_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what its write-backs fold to, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- x: region 1 reads it through window 0; region 0 and the host operations do not touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
/-- s: region 0 reads it through window 0. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := W1_of m c main_arg1 (by decide)
    _ = m ((c : Thread nD τ).loc main_arg1) := rfl
/-- W: region 0 reads it through window 1. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of m c main_arg2 (by decide)
    _ = m ((c : Thread nD τ).loc main_arg2) := rfl
/-- The bias: only the first reshape reads it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- The scale: only the last reshape reads it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every buffer that outlives a region, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every outliving buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every outliving buffer at W3, left at W4. Its invariant takes
    the class invariant at the first point and gives it back after the last (the scratch contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    have h : (Pipeline.ΦA spec1 c : sProp 𝕄)
        ⊢ iprop((∃ r, prngReg c r) ∗ Pipeline.ownSems0 (fun k : PEmpty => k.elim) c ∗ Pipeline.scopedRest (Pipeline.pin (pcfgs (F := F)) adm 1).spec c) := by
      rw [Pipeline.ownSems0_none]; unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of these segments. -/
theorem main_run (c : Dev nD) : main (F := F) c = Pipeline.Seg.run (segs m) := (main_chain c).trans (by chain_rfl)

set_option backward.isDefEq.respectTransparency.types false in
/-- From any launch memory with zero counters every weakly fair execution of @main on the TensorCores ends, nothing
    faulting, with the result buffer at region 1's final array of its output window and each argument as launched. -/
theorem run (ρ : Dev nD → PrngReg) : θ_run defs (onTc (τ := τ) (main (F := F))) ⟨m, fun _ => 0, ρ⟩ (fun r => ∀ c : Dev nD,
      r.2.mem ((c.tc : Thread nD τ).loc main_v9) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v9 (by decide))).trans (W4_arr m c 5),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Hand

end
-- ==== Proof.KI.R0.lean ====
/-
  Region 0 of @main (the hypernetwork product): at every one of the 48 grid points the body reads the whole
  [64, 1024] block of s, one [1024, 1024] column slab of W and the matching [1, 1024] slab of the bias, and stores
  s·W_slab + bias_slab into the matching [64, 1024] column slab of the result. Nothing is carried between points.
  Stated at any float instance and at a parameter V, the buffer contents when the region is entered.
-/
import proofs.«136581_j63823214019112_2_alg».proof.Proof.Gen.KernelIdeal.Launch
import proofs.«136581_j63823214019112_2_alg».proof.Proof.Gen.KernelIdeal.Skeleton
import proofs.«136581_j63823214019112_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S64x1024 := Rect.unit (s := S64x1024) ![0, 0] S64x1024.size inb_S64x1024_S64x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- What the body leaves in the result window's staging buffer, from the three input blocks: its one whole store. -/
def out0_3 (x0 : Vec F S64x1024 .f32) (x1 : Vec F S1024x1024 .f32) (x2 : Vec F S1x1024 .f32) : Vec F S64x1024 .f32 :=
  View.canon [⟨r0_0, k0_pay1 (View.ld x0 r0_0) (View.ld x1 r0_1) (View.ld x2 r0_2)⟩]

/-- The proof data of pipeline 0 on core c: the arrays as the region finds them; after the body each input's
    buffer at its block and the result's at out0_3 of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows' buffers hold their blocks -/

/-- An input window's current staging buffer holds its block at every point, whether the pipeline fetched it there
    or not: where it did not, the block index has not moved since the last fetch and the body left the block in place.
    Window 0 (the whole of s) is fetched once, at the first point; windows 1 and 2 at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The one store covers the result's buffer -/

/-- The body's single store writes the whole [64, 1024] buffer, so every index of it lies in the stored rectangle. -/
theorem cover0_3 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-! ## The body's triple -/

set_option maxHeartbeats 1000000 in
/-- The body on whole staging memrefs, the three inputs' at contents x0, x1, x2 and the result's at anything, runs to
    the continuation with the inputs' as they were and the result's at out0_3 x0 x1 x2: three whole loads, a fourth
    whose value is dropped, one whole store. -/
theorem sound_kernel0 (c : Dev nD) (E : Set ℕ) (i : grid0.Coords)
    (arg1 : Memref sig .tc .vmem S64x1024 .f32) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S64x1024 .f32) (harg4 : arg4.IsWhole)
    (x0 : Vec F S64x1024 .f32) (x1 : Vec F S1024x1024 .f32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__hyper_kernel i arg1 harg1 arg2 harg2 arg3 harg3 arg4 harg4) K := by
  simp only [cc0__hyper_kernel_eq_skeleton]; unfold cc0__hyper_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point t: the class invariant, the core's debts, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of @main (the per-batch gated MLP): the grid is 64 batches × 2 row tiles, the tile index innermost. At
  the first tile of a batch the body normalises the batch's three weight blocks column by column (each column
  divided by the larger of its Euclidean norm and a small constant) and keeps them in two scratch buffers: gate and
  value side by side as one [64, 512] buffer, the output projection as a [256, 64] buffer. At every tile it
  RMS-normalises the tile's 2048 rows of x, multiplies by the kept gate|value buffer, forms
  gate · logistic(gate) · value, multiplies by the kept projection and adds x back. The scratch buffers are
  carried from the first tile of a batch to the second. Stated at any float instance and at a parameter V, the
  buffer contents when the region is entered.
-/
import proofs.«136581_j63823214019112_2_alg».proof.Proof.Gen.KernelIdeal.Launch
import proofs.«136581_j63823214019112_2_alg».proof.Proof.Gen.KernelIdeal.Skeleton
import proofs.«136581_j63823214019112_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x2048x64 := Rect.unit (s := S1x2048x64) ![0, 0, 0] S1x2048x64.size inb_S1x2048x64_S1x2048x64_0_0_0
abbrev r1_1 : Rect S1x64x256 := Rect.unit (s := S1x64x256) ![0, 0, 0] S1x64x256.size inb_S1x64x256_S1x64x256_0_0_0
abbrev r1_3 : Rect S1x256x64 := Rect.unit (s := S1x256x64) ![0, 0, 0] S1x256x64.size inb_S1x256x64_S1x256x64_0_0_0
abbrev r1_4 : Rect S1x64 := Rect.unit (s := S1x64) ![0, 0] S1x64.size inb_S1x64_S1x64_0_0
/-- The gate half, the value half and the whole of the [64, 512] scratch; the whole of the [256, 64] scratch. -/
abbrev rG : Rect S64x512 := Rect.unit (s := S64x512) ![0, 0] S64x256.size inb_S64x512_S64x256_0_0
abbrev rV : Rect S64x512 := Rect.unit (s := S64x512) ![0, 256] S64x256.size inb_S64x512_S64x256_0_256
abbrev rGV : Rect S64x512 := Rect.unit (s := S64x512) ![0, 0] S64x512.size inb_S64x512_S64x512_0_0
abbrev rP : Rect S256x64 := Rect.unit (s := S256x64) ![0, 0] S256x64.size inb_S256x64_S256x64_0_0

/-- The [64, 512] scratch after the first tile of a batch: the normalised gate block in columns 0–255, the
    normalised value block in columns 256–511 (two slab stores, the later one first). -/
def gv1 (x1 x2 : Vec F S1x64x256 .f32) : Vec F S64x512 .bf16 :=
  View.canon [⟨rV, k1_pay4 (View.ld x2 r1_1)⟩, ⟨rG, k1_pay3 (View.ld x1 r1_1)⟩]

/-- The [256, 64] scratch after the first tile of a batch: the normalised projection block (one whole store). -/
def fn1 (x3 : Vec F S1x256x64 .f32) : Vec F S256x64 .bf16 :=
  View.canon [⟨rP, k1_pay1 (k1_pay5 (View.ld x3 r1_3))⟩]

/-- What the body leaves in the result window's staging buffer, from the tile of x, the scale row and the two
    scratch buffers as it finds them after its first-tile branch: its one whole store. -/
def out1_5 (x0 : Vec F S1x2048x64 .f32) (x4 : Vec F S1x64 .f32) (s0 : Vec F S64x512 .bf16) (s1 : Vec F S256x64 .bf16) :
    Vec F S1x2048x64 .f32 :=
  View.canon [⟨r1_0, k1_pay2 (View.ld x0 r1_0) (View.ld x4 r1_4) (View.ld s0 rGV) (View.ld s1 rP)⟩]

/-- What the two scratch buffers hold after the body at position n: recomputed from the point's weight blocks at a
    first tile (n even), kept from the point before at a second tile (n odd). -/
def scrAt1 (c : Dev nD) : (n : ℕ) → n < cfg1.N → Vec F S64x512 .bf16 × Vec F S256x64 .bf16
  | 0, hn => (gv1 (iblk1 V c 1 ⟨0, hn⟩) (iblk1 V c 2 ⟨0, hn⟩), fn1 (iblk1 V c 3 ⟨0, hn⟩))
  | n + 1, hn =>
    if (n + 1) % 2 = 0 then (gv1 (iblk1 V c 1 ⟨n + 1, hn⟩) (iblk1 V c 2 ⟨n + 1, hn⟩), fn1 (iblk1 V c 3 ⟨n + 1, hn⟩))
    else scrAt1 c n (Nat.lt_of_succ_lt hn)

theorem scrAt1_even (c : Dev nD) (t : Fin cfg1.N) (h : t.val % 2 = 0) :
    scrAt1 V c t.val t.isLt = (gv1 (iblk1 V c 1 t) (iblk1 V c 2 t), fn1 (iblk1 V c 3 t)) := by
  obtain ⟨n, hn⟩ := t
  cases n with
  | zero => exact rfl
  | succ n => exact (if_pos h).trans rfl

theorem scrAt1_odd (c : Dev nD) (t : Fin cfg1.N) (h : ¬ t.val % 2 = 0) :
    scrAt1 V c t.val t.isLt = scrAt1 V c (t.val - 1) (Nat.lt_of_le_of_lt (Nat.sub_le _ _) t.isLt) := by
  obtain ⟨n, hn⟩ := t
  cases n with
  | zero => exact absurd (Nat.zero_mod _) h
  | succ n => exact (if_neg h).trans rfl

/-- The two scratch buffers as whole memrefs. -/
abbrev scM0 : Memref sig .tc .vmem S64x512 .bf16 := Memref.whole cc1_scratch0
abbrev scM1 : Memref sig .tc .vmem S256x64 .bf16 := Memref.whole cc1_scratch1

/-- The scoped buffers of the core that are neither a staging buffer of this region nor one of its two scratch
    buffers (the other region's seven staging buffers), each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position n: before the first point the class invariant (every scoped buffer no
    window stages at anything, the generator register at some state); afterwards the same with the two scratch
    buffers at what the point before left in them. -/
def Phi1 (c : Dev nD) : (n : ℕ) → n ≤ cfg1.N → sProp 𝕄
  | 0, _ => Pipeline.ΦA spec1 c
  | n + 1, hn => iprop(otherScoped (F := F) c
      ∗ owns (c : Thread nD τ) scM0 fullShare ((scrAt1 V c n hn).1)
      ∗ owns (c : Thread nD τ) scM1 fullShare ((scrAt1 V c n hn).2)
      ∗ (∃ r, prngReg c r))

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 4 t) (scrAt1 V c t.val t.isLt).1 (scrAt1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 4 t) (scrAt1 V c t.val t.isLt).1 (scrAt1 V c t.val t.isLt).2 := by
  dsimp only [dat1]

/-! ## What the body finds in the input windows' staging buffers -/

/-- An input window's current staging buffer holds the window's block at every point, whether the pipeline fetched
    it there or not: where it did not, the block index has not moved since the point before, and the body leaves the
    buffer as it found it. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The branch on the tile index -/

/-- The condition of the body's one branch, from the grid coordinates: the tile index is 0. -/
abbrev cond1 (i : grid1.Coords) : Prop :=
  (Scalar.cmpi .ne (Scalar.extui (Scalar.cmpi .eq (BitVec.ofNat 32 (i 1).val) 0#32)) 0#32) = 1#1
/-- The tile index being innermost of two tiles, it holds exactly at the even points (decided over the grid). -/
theorem hcond1 : ∀ t : Fin cfg1.N, cond1 (grid1.coords t) ↔ t.val % 2 = 0 :=
  (by decide +kernel : ∀ t : Fin grid1.N, cond1 (grid1.coords t) ↔ t.val % 2 = 0)

/-! ## The class invariant with the scratch buffers named -/

/-- The class invariant hands out the two scratch buffers as whole memrefs at some contents, beside the other
    region's staging buffers and the generator register, -/
theorem PhiA1_split (c : Dev nD) : (Pipeline.ΦA spec1 c : sProp 𝕄)
    ⊢ iprop(otherScoped (F := F) c ∗ (∃ d, owns (c : Thread nD τ) scM0 fullShare d) ∗ (∃ d, owns (c : Thread nD τ) scM1 fullShare d)
        ∗ (∃ r, prngReg c r)) := by
  unfold Pipeline.ΦA otherScoped; rw [scopedRest1_eq]; simp only [scM0, scM1, owns_whole]
  iintro ⟨⟨H1, H2, H3, H4, H5, H6, H7, S0, S1⟩, Hg⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [S0]; · iexact S0
  isplitl [S1]; · iexact S1
  iexact Hg

/-- and takes them back at any contents. -/
theorem PhiA1_join (c : Dev nD) :
    iprop(otherScoped (F := F) c ∗ (∃ d, owns (c : Thread nD τ) scM0 fullShare d) ∗ (∃ d, owns (c : Thread nD τ) scM1 fullShare d)
        ∗ (∃ r, prngReg c r)) ⊢ (Pipeline.ΦA spec1 c : sProp 𝕄) := by
  unfold Pipeline.ΦA otherScoped; rw [scopedRest1_eq]; simp only [scM0, scM1, owns_whole]
  iintro ⟨⟨H1, H2, H3, H4, H5, H6, H7⟩, S0, S1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  iexact Hg

/-! ## The stores cover the buffers they fill -/

/-- The one whole store into the result window's staging buffer covers it. -/
theorem cover1_5 (p0 : Vec F S1x2048x64 .f32) (y : S1x2048x64.Idx) :
    ∃ pc ∈ ([⟨r1_0, p0⟩] : List (View.Piece (Elt F) S1x2048x64 .f32)), y ∈ pc.1.set :=
  View.cover_of_tiled [⟨r1_0, p0⟩] S1x2048x64.size (by rfl) y

/-- The two column slabs (columns 256–511, columns 0–255) tile the [64, 512] scratch, so they cover it. -/
theorem coverGV (p0 p1 : Vec F S64x256 .bf16) (y : S64x512.Idx) :
    ∃ pc ∈ ([⟨rV, p0⟩, ⟨rG, p1⟩] : List (View.Piece (Elt F) S64x512 .bf16)), y ∈ pc.1.set :=
  View.cover_of_tiledL [⟨rV, p0⟩, ⟨rG, p1⟩] S64x256.size (by sl_kernel_rfl) y

/-- The one whole store into the [256, 64] scratch covers it. -/
theorem coverP (p0 : Vec F S256x64 .bf16) (y : S256x64.Idx) :
    ∃ pc ∈ ([⟨rP, p0⟩] : List (View.Piece (Elt F) S256x64 .bf16)), y ∈ pc.1.set :=
  View.cover_of_tiled [⟨rP, p0⟩] S256x64.size (by rfl) y

/-! ## The body's two triples -/

set_option maxHeartbeats 4000000 in
/-- FIRST TILE of a batch (the branch taken). On whole memrefs — the five inputs' at read contents, the result's and
    the two scratch buffers' at anything — the body runs to the continuation holding the inputs' as they were, the
    [64, 512] scratch at the normalised gate and value blocks side by side, the [256, 64] scratch at the normalised
    projection block, and the result's buffer at what the tile computes from x, the scale row and those two. The
    whole loads of the scratch buffers that follow the slab stores read the stores' canonical contents back. -/
theorem sound_first (c : Dev nD) (E : Set ℕ) (i : grid1.Coords) (hc : cond1 i)
    (arg2 : Memref sig .tc .vmem S1x2048x64 .f32) (harg2 : arg2.IsWhole) (arg3 : Memref sig .tc .vmem S1x64x256 .f32) (harg3 : arg3.IsWhole)
    (arg4 : Memref sig .tc .vmem S1x64x256 .f32) (harg4 : arg4.IsWhole) (arg5 : Memref sig .tc .vmem S1x256x64 .f32) (harg5 : arg5.IsWhole)
    (arg6 : Memref sig .tc .vmem S1x64 .f32) (harg6 : arg6.IsWhole) (arg7 : Memref sig .tc .vmem S1x2048x64 .f32) (harg7 : arg7.IsWhole)
    (arg8 : Memref sig .tc .vmem S64x512 .bf16) (harg8 : arg8.IsWhole) (arg9 : Memref sig .tc .vmem S256x64 .bf16) (harg9 : arg9.IsWhole)
    (x0 : Vec F S1x2048x64 .f32) (x1 x2 : Vec F S1x64x256 .f32) (x3 : Vec F S1x256x64 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x4 (gv1 x1 x2) (fn1 x3))
            ∗ owns (c : Thread nD τ) arg8 fullShare (gv1 x1 x2) ∗ owns (c : Thread nD τ) arg9 fullShare (fn1 x3)) -∗ K ⟨⟩))
      ⊢ wp frame (wpE (defs₀ (F := F)) Variants.none c none) E (cc1__glu_kernel i arg2 harg2 arg3 harg3 arg4 harg4 arg5 harg5 arg6 harg6 arg7 harg7 arg8 harg8 arg9 harg9) K := by
  simp only [cc1__glu_kernel_eq_skeleton]; unfold cc1__glu_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  subst hf0; subst hf1; subst hf2; subst hf3; subst hf4
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_eq_canon _ _ _ (cover1_5 _)).trans ?_
    unfold out1_5 gv1 fn1
    rw [View.readCov_eq_canon', View.readCov_eq_canon']
    rfl
  isplitl [H8]
  · iexists _; isplitr
    swap; · iexact H8
    ipureintro
    exact View.read_writes_eq_canon _ _ _ (coverGV _ _)
  iexists _; isplitr
  swap; · iexact H9
  ipureintro
  exact View.read_writes_eq_canon _ _ _ (coverP _)

set_option maxHeartbeats 4000000 in
/-- SECOND TILE of a batch (the branch not taken). The weight windows' buffers are not touched; the two scratch
    buffers are read whole at the contents they are found at and left so; the result's buffer ends at what the tile
    computes from x, the scale row and those contents. -/
theorem sound_second (c : Dev nD) (E : Set ℕ) (i : grid1.Coords) (hc : ¬ cond1 i)
    (arg2 : Memref sig .tc .vmem S1x2048x64 .f32) (harg2 : arg2.IsWhole) (arg3 : Memref sig .tc .vmem S1x64x256 .f32) (harg3 : arg3.IsWhole)
    (arg4 : Memref sig .tc .vmem S1x64x256 .f32) (harg4 : arg4.IsWhole) (arg5 : Memref sig .tc .vmem S1x256x64 .f32) (harg5 : arg5.IsWhole)
    (arg6 : Memref sig .tc .vmem S1x64 .f32) (harg6 : arg6.IsWhole) (arg7 : Memref sig .tc .vmem S1x2048x64 .f32) (harg7 : arg7.IsWhole)
    (arg8 : Memref sig .tc .vmem S64x512 .bf16) (harg8 : arg8.IsWhole) (arg9 : Memref sig .tc .vmem S256x64 .bf16) (harg9 : arg9.IsWhole)
    (x0 : Vec F S1x2048x64 .f32) (x4 : Vec F S1x64 .f32) (s0 : Vec F S64x512 .bf16) (s1 : Vec F S256x64 .bf16) (K : PUnit → sProp 𝕄) :
    iprop(owns (c : Thread nD τ) arg2 fullShare x0 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg6 fullShare x4
            ∗ owns (c : Thread nD τ) arg7 fullShare (out1_5 x0 x4 s0 s1)
            ∗ owns (c : Thread nD τ) arg8 fullShare s0 ∗ owns (c : Thread nD τ) arg9 fullShare s1) -∗ K ⟨⟩))
      ⊢ wp frame (wpE (defs₀ (F := F)) Variants.none c none) E (cc1__glu_kernel i arg2 harg2 arg3 harg3 arg4 harg4 arg5 harg5 arg6 harg6 arg7 harg7 arg8 harg8 arg9 harg9) K := by
  simp only [cc1__glu_kernel_eq_skeleton]; unfold cc1__glu_kernel_skel
  unfold owns
  iintro ⟨⟨%f0, %hf0, H0⟩, ⟨%f4, %hf4, H4⟩, ⟨%d7, %f7, -, H7⟩, ⟨%f8, %hf8, H8⟩, ⟨%f9, %hf9, H9⟩, Hk⟩
  subst hf0; subst hf4; subst hf8; subst hf9
  sl_exec (disch := exact hc)
  sl_step
  iapply Hk
  sl_unfold_run_names
  isplitl [H0]
  · iexists f0; isplitr; · ipureintro; rfl
    iexact H0
  isplitl [H4]
  · iexists f4; isplitr; · ipureintro; rfl
    iexact H4
  isplitl [H7]
  · iexists _; isplitr
    swap; · iexact H7
    ipureintro
    exact View.read_writes_eq_canon _ _ _ (cover1_5 _)
  isplitl [H8]
  · iexists f8; isplitr; · ipureintro; rfl
    iexact H8
  iexists f9; isplitr; · ipureintro; rfl
  iexact H9

/-! ## The invariant, point by point -/

/-- After point n (before point n + 1) the two scratch buffers hold what that point left. -/
theorem Phi1_succ (c : Dev nD) (n : ℕ) (hn : n < cfg1.N) :
    Phi1 V c (n + 1) hn = iprop(otherScoped (F := F) c
      ∗ owns (c : Thread nD τ) scM0 fullShare ((scrAt1 V c n hn).1)
      ∗ owns (c : Thread nD τ) scM1 fullShare ((scrAt1 V c n hn).2)
      ∗ (∃ r, prngReg c r)) := rfl

/-- Before a point that is not the first they hold what the point before left. -/
theorem Phi1_pos (c : Dev nD) (n : ℕ) (h : n ≤ cfg1.N) (hz : n ≠ 0) :
    Phi1 V c n h = iprop(otherScoped (F := F) c
      ∗ owns (c : Thread nD τ) scM0 fullShare ((scrAt1 V c (n - 1) (by omega)).1)
      ∗ owns (c : Thread nD τ) scM1 fullShare ((scrAt1 V c (n - 1) (by omega)).2)
      ∗ (∃ r, prngReg c r)) := by
  cases n with
  | zero => exact absurd rfl hz
  | succ n => rfl

/-- Before any point the invariant holds the two scratch buffers whole at SOME contents, beside the other region's
    staging buffers and the generator register: all a first tile needs, and all the region's exit needs. -/
theorem Phi1_any (c : Dev nD) (n : ℕ) (h : n ≤ cfg1.N) :
    Phi1 V c n h ⊢ iprop(otherScoped (F := F) c ∗ (∃ d, owns (c : Thread nD τ) scM0 fullShare d)
      ∗ (∃ d, owns (c : Thread nD τ) scM1 fullShare d) ∗ (∃ r, prngReg c r)) := by
  cases n with
  | zero => exact PhiA1_split c
  | succ n =>
    rw [Phi1_succ]
    iintro ⟨Ho, HS0, HS1, Hg⟩
    isplitl [Ho]; · iexact Ho
    isplitl [HS0]; · iexists _; iexact HS0
    isplitl [HS1]; · iexists _; iexact HS1
    iexact Hg

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point t: the invariant, the core's owed waits, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point. The inputs' memrefs hold their blocks; the closed form of the branch condition says
    which tile the point is. At a first tile the invariant gives the scratch buffers at some contents and takes them
    back at the contents computed from the point's weight blocks; at a second tile (never the first point) it gives
    them at what the point before left and takes them back unchanged. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) t.isLt from rfl, Phi1_succ, Phi1_castSucc,
    after1_0, after1_1, after1_2, after1_3, after1_4, after1_5]
  by_cases h0 : t.val % 2 = 0
  · rw [scrAt1_even V c t h0]
    dsimp only
    iintro ⟨HΦ, Ho, ⟨%d0, H0⟩, ⟨%d1, H1⟩, ⟨%d2, H2⟩, ⟨%d3, H3⟩, ⟨%d4, H4⟩, ⟨%d5, H5⟩⟩
    ihave HΦ' := (Phi1_any V c t.val (Nat.le_of_lt t.isLt)) $$ HΦ
    icases HΦ' with ⟨Hoth, HS0, HS1, Hg⟩
    iapply (sound_first c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [scrAt1_odd V c t h0, Phi1_pos V c _ _ hz]
    iintro ⟨⟨Hoth, HS0, HS1, Hg⟩, Ho, ⟨%d0, H0⟩, ⟨%d1, H1⟩, ⟨%d2, H2⟩, ⟨%d3, H3⟩, ⟨%d4, H4⟩, ⟨%d5, H5⟩⟩
    iapply (sound_second c Set.univ (grid1.coords t) (fun h => h0 ((hcond1 t).mp h)) _ _ _ _ _ _ _ _ _ _ _ _ _ _ _ _
      (iblk1 V c 0 t) (iblk1 V c 4 t) _ _ _)
    isplitl [H0]; · iexact H0
    isplitl [H4]; · iexact H4
    isplitl [H5]; · iexists _; iexact H5
    isplitl [HS0]; · iexact HS0
    isplitl [HS1]; · iexact HS1
    iintro ⟨H0, H4, H5, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _

/-- After the last point the invariant gives the class invariant back: the scratch buffers' contents are forgotten. -/
theorem hout1 (c : Dev nD) : (dat1 V c).Φ (Fin.last cfg1.N) ⊢ (Pipeline.ΦA spec1 c : sProp 𝕄) := by
  rw [show (dat1 V c).Φ (Fin.last cfg1.N)
    = Phi1 V c (Fin.last cfg1.N).val (Nat.le_of_lt_succ (Fin.last cfg1.N).isLt) from rfl]
  exact (Phi1_any V c _ _).trans (PhiA1_join c)

end Cert.KernelIdeal.Hand

end
-- ==== Proof.KI.Run.lean ====
/-
  The whole run of @main: a reshape of the bias; region 0; three column slices of its result, each reshaped into
  a weight array, and a reshape of the scale; region 1. Between two of these items every buffer of the core that
  outlives a region holds a definite array, obtained from the launch memory by folding the items in order: a host
  operation writes its result, a region leaves each of its windows' arrays at what its write-backs fold to and
  every other buffer alone. Read at the end, the last of these valuations gives the result array as region 1's
  final array of its output window, and each argument array as launched (no host operation writes one; a region
  reads one through an input window, which never changes its array, or does not touch it).
-/
import proofs.«136581_j63823214019112_2_alg».proof.Proof.Gen.KernelIdeal.Launch
import proofs.«136581_j63823214019112_2_alg».proof.Proof.Gen.KernelIdeal.Skeleton
import proofs.«136581_j63823214019112_2_alg».proof.Proof.Gen.KernelIdeal.Points
import proofs.«136581_j63823214019112_2_alg».proof.Proof.Gen.KernelIdeal.Regions
import proofs.«136581_j63823214019112_2_alg».proof.Proof.KI.R0
import proofs.«136581_j63823214019112_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what its write-backs fold to, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- x: region 1 reads it through window 0; region 0 and the host operations do not touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
/-- s: region 0 reads it through window 0. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := W1_of m c main_arg1 (by decide)
    _ = m ((c : Thread nD τ).loc main_arg1) := rfl
/-- W: region 0 reads it through window 1. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of m c main_arg2 (by decide)
    _ = m ((c : Thread nD τ).loc main_arg2) := rfl
/-- The bias: only the first reshape reads it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- The scale: only the last reshape reads it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every buffer that outlives a region, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every outliving buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every outliving buffer at W3, left at W4. Its invariant takes
    the class invariant at the first point and gives it back after the last (the scratch contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    have h : (Pipeline.ΦA spec1 c : sProp 𝕄)
        ⊢ iprop((∃ r, prngReg c r) ∗ Pipeline.ownSems0 (fun k : PEmpty => k.elim) c ∗ Pipeline.scopedRest (Pipeline.pin (pcfgs (F := F)) adm 1).spec c) := by
      rw [Pipeline.ownSems0_none]; unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of these segments. -/
theorem main_run (c : Dev nD) : main (F := F) c = Pipeline.Seg.run (segs m) := (main_chain c).trans (by chain_rfl)

set_option backward.isDefEq.respectTransparency.types false in
/-- From any launch memory with zero counters every weakly fair execution of @main on the TensorCores ends, nothing
    faulting, with the result buffer at region 1's final array of its output window and each argument as launched. -/
theorem run (ρ : Dev nD → PrngReg) : θ_run defs (onTc (τ := τ) (main (F := F))) ⟨m, fun _ => 0, ρ⟩ (fun r => ∀ c : Dev nD,
      r.2.mem ((c.tc : Thread nD τ).loc main_v9) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v9 (by decide))).trans (W4_arr m c 5),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Hand

end
-- ==== Proof.Val.Glue.lean ====
/-
  What the host operations around the two regions put in the buffers the regions read, entry by entry.
  Before region 0 the bias is reshaped [49152] → [1, 49152]: entry (0, j) is bias[j]. Between the regions the
  [64, 49152] array P that region 0 leaves is cut into three column ranges of 16384 and each is reshaped, row-major,
  into a weight array: g[b, d, h] = P[b, d·256 + h], v[b, d, h] = P[b, 16384 + d·256 + h] (both [64, 64, 256]) and
  f[b, h, d] = P[b, 32768 + h·64 + d] ([64, 256, 64]); the scale is reshaped [64] → [1, 64]. No host operation
  writes x, s or W.
-/
import proofs.«136581_j63823214019112_2_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.ShloMosaic.ValueIdx
open Idealize.SL.Sem
open Cert.KernelIdeal Cert.KernelIdeal.Hand
open Cert.KernelIdeal.Gen hiding V0 V1 V2 V3 V4

variable {F : FTy → Type} [FloatOps F]
variable (m : (ℓ : Loc nD τ sig) → Buf (Elt F) ℓ)

/-! ## Region 0's entry -/

theorem V1_arg1 (c : Dev nD) : V1 m c main_arg1 = m ((c : Thread nD τ).loc main_arg1) := W1_of m c main_arg1 (by decide)
theorem V1_arg2 (c : Dev nD) : V1 m c main_arg2 = m ((c : Thread nD τ).loc main_arg2) := W1_of m c main_arg2 (by decide)

/-- The reshaped bias, as the host operation's term. -/
theorem V1_v0 (c : Dev nD) :
    V1 m c main_v0 = shapeCast S1x49152 (m ((c : Thread nD τ).loc main_arg3)) shapeCasts_S49152_S1x49152 := by
  show StableHlo.after hostOps0 (W0 m c) (Proc.devRef .tc main_v0) = _
  after_results
  rfl

/-- The reshaped bias at (0, j) is bias[j]. -/
theorem V1_v0_apply (c : Dev nD) (j : Fin 49152) :
    V1 m c main_v0 (ix2 (0 : Fin 1) j) = m ((c : Thread nD τ).loc main_arg3) (ix1 j) := by
  rw [V1_v0]
  exact shapeCast_apply _ _ (ix2 (0 : Fin 1) j) (ix1 j) (by
    rw [Shape.rowMajor_val_one, Shape.rowMajor_val_two]; simp)

/-! ## Region 1's entry -/

theorem V3_arg0 (c : Dev nD) : V3 m c main_arg0 = m ((c : Thread nD τ).loc main_arg0) :=
  (W3_of m c main_arg0 (by decide)).trans ((W2_of_ne m c main_arg0 (by decide)).trans (W1_of m c main_arg0 (by decide)))

/-- The array region 0 leaves in its result buffer. -/
abbrev P0 (c : Dev nD) : Buf (Elt F) ((c : Thread nD τ).loc main_v1) := (dat0 (V1 m) c).arrAt 3 cfg0.N

theorem W2_v1 (c : Dev nD) : W2 m c (Proc.devRef .tc main_v1) = P0 m c := W2_arr m c 3

/-- The reshaped scale, as the host operation's term. -/
theorem V3_v8 (c : Dev nD) :
    V3 m c main_v8 = shapeCast S1x64 (W2 m c (Proc.devRef .tc main_arg4)) shapeCasts_S64_S1x64 := by
  show StableHlo.after hostOps1 (W2 m c) (Proc.devRef .tc main_v8) = _
  after_results
  rfl

theorem W2_arg4 (c : Dev nD) : W2 m c (Proc.devRef .tc main_arg4) = m ((c : Thread nD τ).loc main_arg4) :=
  (W2_of_ne m c main_arg4 (by decide)).trans (W1_of m c main_arg4 (by decide))

/-- The reshaped scale at (0, d) is scale[d]. -/
theorem V3_v8_apply (c : Dev nD) (d : Fin 64) :
    V3 m c main_v8 (ix2 (0 : Fin 1) d) = m ((c : Thread nD τ).loc main_arg4) (ix1 d) := by
  rw [V3_v8, W2_arg4]
  exact shapeCast_apply _ _ (ix2 (0 : Fin 1) d) (ix1 d) (by
    rw [Shape.rowMajor_val_one, Shape.rowMajor_val_two]; simp)

/-- The three weight arrays, as the host operations' terms over region 0's result. -/
theorem V3_v3 (c : Dev nD) :
    V3 m c main_v3 = shapeCast S64x64x256 (extractStridedSlice S64x16384 ![0, 0] (W2 m c (Proc.devRef .tc main_v1)) slices_S64x49152_S64x16384_0_0) shapeCasts_S64x16384_S64x64x256 := by
  show StableHlo.after hostOps1 (W2 m c) (Proc.devRef .tc main_v3) = _
  after_results
  rfl
theorem V3_v5 (c : Dev nD) :
    V3 m c main_v5 = shapeCast S64x64x256 (extractStridedSlice S64x16384 ![0, 16384] (W2 m c (Proc.devRef .tc main_v1)) slices_S64x49152_S64x16384_0_16384) shapeCasts_S64x16384_S64x64x256 := by
  show StableHlo.after hostOps1 (W2 m c) (Proc.devRef .tc main_v5) = _
  after_results
  rfl
theorem V3_v7 (c : Dev nD) :
    V3 m c main_v7 = shapeCast S64x256x64 (extractStridedSlice S64x16384 ![0, 32768] (W2 m c (Proc.devRef .tc main_v1)) slices_S64x49152_S64x16384_0_32768) shapeCasts_S64x16384_S64x256x64 := by
  show StableHlo.after hostOps1 (W2 m c) (Proc.devRef .tc main_v7) = _
  after_results
  rfl

/-- g[b, d, h] = P[b, d·256 + h]. -/
theorem V3_v3_apply (c : Dev nD) (b : Fin 64) (d : Fin 64) (h : Fin 256) :
    V3 m c main_v3 (ix3 b d h) = P0 m c (ix2 b (⟨d.val * 256 + h.val, by omega⟩ : Fin 49152)) := by
  rw [V3_v3, W2_v1]
  refine (shapeCast_apply _ _ (ix3 b d h) (ix2 b (⟨d.val * 256 + h.val, by omega⟩ : Fin 16384)) (by
    rw [Shape.rowMajor_val_two, Shape.rowMajor_val_three]; simp; ring)).trans ?_
  exact extractStridedSlice_apply _ _ _ (ix2 b (⟨d.val * 256 + h.val, by omega⟩ : Fin 16384)) (ix2 b (⟨d.val * 256 + h.val, by omega⟩ : Fin 49152))
    (fun a => by match a with | ⟨0, _⟩ => simp | ⟨1, _⟩ => simp)

/-- v[b, d, h] = P[b, 16384 + d·256 + h]. -/
theorem V3_v5_apply (c : Dev nD) (b : Fin 64) (d : Fin 64) (h : Fin 256) :
    V3 m c main_v5 (ix3 b d h) = P0 m c (ix2 b (⟨16384 + (d.val * 256 + h.val), by omega⟩ : Fin 49152)) := by
  rw [V3_v5, W2_v1]
  refine (shapeCast_apply _ _ (ix3 b d h) (ix2 b (⟨d.val * 256 + h.val, by omega⟩ : Fin 16384)) (by
    rw [Shape.rowMajor_val_two, Shape.rowMajor_val_three]; simp; ring)).trans ?_
  exact extractStridedSlice_apply _ _ _ (ix2 b (⟨d.val * 256 + h.val, by omega⟩ : Fin 16384)) (ix2 b (⟨16384 + (d.val * 256 + h.val), by omega⟩ : Fin 49152))
    (fun a => by match a with | ⟨0, _⟩ => simp | ⟨1, _⟩ => simp)

/-- f[b, h, d] = P[b, 32768 + h·64 + d]. -/
theorem V3_v7_apply (c : Dev nD) (b : Fin 64) (h : Fin 256) (d : Fin 64) :
    V3 m c main_v7 (ix3 b h d) = P0 m c (ix2 b (⟨32768 + (h.val * 64 + d.val), by omega⟩ : Fin 49152)) := by
  rw [V3_v7, W2_v1]
  refine (shapeCast_apply _ _ (ix3 b h d) (ix2 b (⟨h.val * 64 + d.val, by omega⟩ : Fin 16384)) (by
    rw [Shape.rowMajor_val_two, Shape.rowMajor_val_three]; simp; ring)).trans ?_
  exact extractStridedSlice_apply _ _ _ (ix2 b (⟨h.val * 64 + d.val, by omega⟩ : Fin 16384)) (ix2 b (⟨32768 + (h.val * 64 + d.val), by omega⟩ : Fin 49152))
    (fun a => by match a with | ⟨0, _⟩ => simp | ⟨1, _⟩ => simp)

end Cert.KernelIdeal.Glue

end
-- ==== Proof.Spec.lean ====
/-
  The function both programs compute, on the extended reals, index by index.

  From the arguments x [64, 4096, 64], s [64, 1024], W [1024, 49152], bias [49152], scale [64]:
    P[b, j]        = (sum over k of s[b, k] · W[k, j]) + bias[j]                      the generated parameters
    g[b, d, h]     = P[b, d·256 + h]            v[b, d, h] = P[b, 16384 + d·256 + h]  the gate and value weights
    f[b, h, d]     = P[b, 32768 + h·64 + d]                                            the projection weights
    each of g, v, f normalised along its middle axis: w[b, i, j] / max(sqrt(sum over i' of w[b, i', j]²), ε)
    xn[b, n, d]    = x[b, n, d] · rsqrt((sum over d' of x[b, n, d']²) / 64 + ε') · scale[d]
    gate[b, n, h]  = sum over d of xn[b, n, d] · ĝ[b, d, h]       value likewise with v̂
    hid[b, n, h]   = gate · logistic(gate) · value
    out[b, n, d]   = (sum over h of hid[b, n, h] · f̂[b, h, d]) + x[b, n, d]
  Sums are finite sums in the extended reals (a commutative monoid, so neither order nor grouping matters); ε, ε' and
  64 are the float words the programs spell, read at their exact values.
-/
import Idealize.ShloMosaic.PureOps.Ideal
import Idealize.ShloMosaic.Lib.ValueIdx

noncomputable section

namespace Cert.Spec

open Idealize.ShloMosaic Idealize.ShloMosaic.ValueIdx

/-- The argument arrays, as functions of an index of the literal shape. -/
abbrev ArrX : Type := (⟨3, ![64, 4096, 64]⟩ : Shape).Idx → EReal
abbrev ArrS : Type := (⟨2, ![64, 1024]⟩ : Shape).Idx → EReal
abbrev ArrW : Type := (⟨2, ![1024, 49152]⟩ : Shape).Idx → EReal
abbrev ArrB : Type := (⟨1, ![49152]⟩ : Shape).Idx → EReal
abbrev ArrC : Type := (⟨1, ![64]⟩ : Shape).Idx → EReal

/-- ε of the weight normalisation, ε' of the RMS normalisation, and the row length 64, as the programs spell them. -/
def epsN : EReal := Ideal.ofBits .f32 0x2B8CBCCC#32
def epsR : EReal := Ideal.ofBits .f32 0x358637BD#32
def c64 : EReal := Ideal.ofBits .f32 0x42800000#32

/-- The generated parameters: s · W + bias. -/
def params (s : ArrS) (W : ArrW) (bias : ArrB) (b : Fin 64) (j : Fin 49152) : EReal :=
  (∑ k : Fin 1024, s (ix2 b k) * W (ix2 k j)) + bias (ix1 j)

/-- Column normalisation of a matrix: each entry over the larger of its column's Euclidean norm and ε. -/
def colNorm {A B : Nat} (w : Fin A → Fin B → EReal) (i : Fin A) (j : Fin B) : EReal :=
  Ideal.div (w i j) (max (Ideal.sqrt (∑ i' : Fin A, w i' j * w i' j)) epsN)

/-- The three weight blocks of batch b cut out of a row of parameters. -/
def gateW (P : Fin 49152 → EReal) (d : Fin 64) (h : Fin 256) : EReal := P ⟨d.val * 256 + h.val, by omega⟩
def valueW (P : Fin 49152 → EReal) (d : Fin 64) (h : Fin 256) : EReal := P ⟨16384 + (d.val * 256 + h.val), by omega⟩
def projW (P : Fin 49152 → EReal) (h : Fin 256) (d : Fin 64) : EReal := P ⟨32768 + (h.val * 64 + d.val), by omega⟩

/-- The RMS-normalised, scaled row entry. -/
def xnorm (x : ArrX) (scale : ArrC) (b : Fin 64) (n : Fin 4096) (d : Fin 64) : EReal :=
  x (ix3 b n d) * Ideal.rsqrt (Ideal.div (∑ d' : Fin 64, x (ix3 b n d') * x (ix3 b n d')) c64 + epsR) * scale (ix1 d)

/-- The hidden activation gate · logistic(gate) · value from the two pre-activations. -/
def glu (gate value : EReal) : EReal := gate * Ideal.logistic gate * value

/-- The hidden activation at (b, n, h), from a row P of parameters of batch b. -/
def hid (x : ArrX) (scale : ArrC) (P : Fin 49152 → EReal) (b : Fin 64) (n : Fin 4096) (h : Fin 256) : EReal :=
  glu (∑ d : Fin 64, xnorm x scale b n d * colNorm (gateW P) d h)
      (∑ d : Fin 64, xnorm x scale b n d * colNorm (valueW P) d h)

/-- The result at (b, n, d), from a row P of parameters of batch b. -/
def outOf (x : ArrX) (scale : ArrC) (P : Fin 49152 → EReal) (b : Fin 64) (n : Fin 4096) (d : Fin 64) : EReal :=
  (∑ h : Fin 256, hid x scale P b n h * colNorm (projW P) h d) + x (ix3 b n d)

/-- The whole result array, as a function of the five arguments. -/
def result (x : ArrX) (s : ArrS) (W : ArrW) (bias : ArrB) (scale : ArrC) : (⟨3, ![64, 4096, 64]⟩ : Shape).Idx → EReal :=
  fun i => outOf x scale (params s W bias (i 0)) (i 0) (i 1) (i 2)

end Cert.Spec

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.Val.V0.lean ====
/-
  The value of region 0 at the extended reals: after its 48 grid points the [64, 49152] result array holds
  s·W + bias of the arrays the region found, entry by entry,
      P[b, j] = (sum over k of s[b, k] · W[k, j]) + bias[0, j].
  Point t reads all of s, columns 1024·t … 1024·t + 1023 of W and of the bias row, and writes the same columns of the
  result. The body's one stored value, read at entry (p, q) of a block, is the sum over k of s[p, k] · W[k, 1024·t + q]
  plus bias[0, 1024·t + q] (the roundings to the narrower format are the identity at the extended reals, and the
  product accumulates into zero). Every column j of the result lies in the block of point j / 1024, so the blocks
  cover the array and it ends holding P.
-/
import proofs.«136581_j63823214019112_2_alg».proof.Proof.KI.R0
import proofs.«136581_j63823214019112_2_alg».proof.Proof.Spec
import proofs.«136581_j63823214019112_2_alg».proof.Proof.LibDotPlain
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The product's dimension numbers: the left operand's axis 1 against the right operand's axis 0. -/
abbrev D0 : DotDims S64x1024 S1024x1024 S64x1024 := dot_S64x1024_S1024x1024_S64x1024_1_0_0_1_n_n

theorem D0_rank : D0.contr.rank = 1 := rfl
theorem D0_size : D0.contr.size ⟨0, by rw [D0_rank]; exact Nat.one_pos⟩ = 1024 := rfl

theorem D0_l0 (i : S64x1024.Idx) (k : D0.contr.Idx) : (D0.lhsIdx i k 0).val = (i 0).val := rfl
theorem D0_l1 (i : S64x1024.Idx) (k : D0.contr.Idx) : (D0.lhsIdx i k 1).val = (k ⟨0, by rw [D0_rank]; exact Nat.one_pos⟩).val :=
  D0.lhsIdx_val_of_single (cl := 1) rfl i k
theorem D0_r0 (i : S64x1024.Idx) (k : D0.contr.Idx) : (D0.rhsIdx i k 0).val = (k ⟨0, by rw [D0_rank]; exact Nat.one_pos⟩).val :=
  D0.rhsIdx_val_of_single (cr := 0) rfl i k
theorem D0_r1 (i : S64x1024.Idx) (k : D0.contr.Idx) : (D0.rhsIdx i k 1).val = (i 1).val := rfl

/-- The body's payload at an entry: row p of the first block against column q of the second, plus the third's entry q. -/
theorem pay_apply (x0 : Vec Ideal S64x1024 .f32) (x1 : Vec Ideal S1024x1024 .f32) (x2 : Vec Ideal S1x1024 .f32)
    (p : Fin 64) (q : Fin 1024) :
    k0_pay1 x0 x1 x2 (ix2 p q) = (∑ k : Fin 1024, x0 (ix2 p k) * x1 (ix2 k q)) + x2 (ix2 0 q) := by
  unfold k0_pay1
  rw [addf_apply]
  congr 1
  · exact Cert.LibDotPlain.matmul_zero_plain D0 D0_rank D0_size D0_l0 D0_l1 D0_r0 D0_r1 none _ _ p q
  · rw [shapeCast_self]
    refine broadcastTo_apply _ _ _ (ix2 0 q) (fun a => ?_)
    match a with
    | ⟨0, _⟩ => rfl
    | ⟨1, _⟩ => rfl

/-! ## The windows' block indices over the grid -/

/-- Window 0 stays on its one block; windows 1, 2 and 3 move along their second axis with the grid point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-! ## The input blocks, read off their arrays -/

/-- The block of s at any point is s itself. -/
theorem blk_s (c : Dev nD) (t : Fin cfg0.N) (x : S64x1024.Idx) (k : S64x1024.Idx)
    (hk0 : (k 0).val = (x 0).val) (hk1 : (k 1).val = (x 1).val) :
    (iblk0 V c 0 t : Vec Ideal S64x1024 .f32) x = (V c main_arg1 : S64x1024.Idx → EReal) k := by
  obtain ⟨e00, e01, -⟩ := idx_facts t
  unfold iblk0
  rw [View.read_apply]
  show (V c main_arg1 : S64x1024.Idx → EReal) _ = _
  congr 1
  funext a
  apply Fin.ext
  match a with
  | ⟨0, _⟩ => show win0_0.index t (0 : Fin 2) * 64 + 1 * (x 0).val = (k 0).val; omega
  | ⟨1, _⟩ => show win0_0.index t (1 : Fin 2) * 1024 + 1 * (x 1).val = (k 1).val; omega

/-- The block of W at point t is its columns 1024·t … 1024·t + 1023. -/
theorem blk_W (c : Dev nD) (t : Fin cfg0.N) (x : S1024x1024.Idx) (k : S1024x49152.Idx)
    (hk0 : (k 0).val = (x 0).val) (hk1 : (k 1).val = 1024 * t.val + (x 1).val) :
    (iblk0 V c 1 t : Vec Ideal S1024x1024 .f32) x = (V c main_arg2 : S1024x49152.Idx → EReal) k := by
  obtain ⟨-, -, e10, e11, -⟩ := idx_facts t
  unfold iblk0
  rw [View.read_apply]
  show (V c main_arg2 : S1024x49152.Idx → EReal) _ = _
  congr 1
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- The block of the bias row at point t is its columns 1024·t … 1024·t + 1023. -/
theorem blk_b (c : Dev nD) (t : Fin cfg0.N) (x : S1x1024.Idx) (k : S1x49152.Idx)
    (hk0 : (k 0).val = (x 0).val) (hk1 : (k 1).val = 1024 * t.val + (x 1).val) :
    (iblk0 V c 2 t : Vec Ideal S1x1024 .f32) x = (V c main_v0 : S1x49152.Idx → EReal) k := by
  obtain ⟨-, -, -, -, e20, e21, -⟩ := idx_facts t
  unfold iblk0
  rw [View.read_apply]
  show (V c main_v0 : S1x49152.Idx → EReal) _ = _
  congr 1
  funext a
  apply Fin.ext
  match a with
  | ⟨0, _⟩ => show win0_2.index t (0 : Fin 2) * 1 + 1 * (x 0).val = (k 0).val; omega
  | ⟨1, _⟩ => show win0_2.index t (1 : Fin 2) * 1024 + 1 * (x 1).val = (k 1).val; omega

/-! ## What a point writes back -/

theorem hz : (![0, 0] : Fin 2 → Nat) = fun _ => 0 := funext fun a => by fin_cases a <;> rfl

/-- s·W + bias of the arrays the region finds, entry by entry. -/
abbrev G (c : Dev nD) : S64x49152.Idx → EReal := fun i =>
  Cert.Spec.params (V c main_arg1) (V c main_arg2) (fun j => V c main_v0 (ix2 0 (j 0))) (i 0) (i 1)

/-- The payload of the three blocks at point t, at entry j of the block, is G at row j 0, column 1024·t + j 1. -/
theorem point_apply (c : Dev nD) (t : Fin cfg0.N) (j : S64x1024.Idx) (i : S64x49152.Idx)
    (hi0 : (i 0).val = (j 0).val) (hi1 : (i 1).val = 1024 * t.val + (j 1).val) :
    k0_pay1 (iblk0 V c 0 t) (iblk0 V c 1 t) (iblk0 V c 2 t) j = G V c i := by
  obtain ⟨p, q, rfl⟩ : ∃ (p : Fin 64) (q : Fin 1024), j = ix2 p q := ⟨j 0, j 1, eq_ix2 j⟩
  refine (pay_apply _ _ _ p q).trans ?_
  unfold G Cert.Spec.params
  refine congrArg₂ (· + ·) (Finset.sum_congr rfl fun k _ => congrArg₂ (· * ·) ?_ ?_) ?_
  · exact blk_s V c t (ix2 p k) (ix2 (i 0) k) hi0 rfl
  · exact blk_W V c t (ix2 k q) (ix2 k (i 1)) rfl hi1
  · exact blk_b V c t (ix2 0 q) (ix2 0 (i 1)) rfl hi1

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S64x1024) hz, View.ld_unit_zero (S := S1024x1024) hz, View.ld_unit_zero (S := S1x1024) hz]
  obtain ⟨-, -, -, -, -, -, e30, e31⟩ := idx_facts t
  funext j
  show k0_pay1 (iblk0 V c 0 t) (iblk0 V c 1 t) (iblk0 V c 2 t) j = G V c (((cfg0.win 3).blk t).view.emb j)
  refine point_apply V c t j _ ?_ ?_
  · show win0_3.index t (0 : Fin 2) * 64 + 1 * (j 0).val = (j 0).val; omega
  · show win0_3.index t (1 : Fin 2) * 1024 + 1 * (j 1).val = 1024 * t.val + (j 1).val; omega

/-! ## The blocks cover the result -/

/-- An index of the result is in point t's block iff each coordinate is in the block's range on its axis. -/
theorem mem_blk (t : Fin cfg0.N) (i : S64x49152.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- Column j of the result lies in the block of point j / 1024. -/
theorem cover (i : S64x49152.Idx) : ∃ t : Fin cfg0.N, (cfg0.win 3).flush t = true ∧ i ∈ ((cfg0.win 3).blk t).view.set := by
  have hi0 : (i 0).val < 64 := (i 0).isLt
  have hi1 : (i 1).val < 49152 := (i 1).isLt
  have hN : cfg0.N = 48 := N_0
  have hlt : (i 1).val / 1024 < cfg0.N := by rw [hN]; omega
  obtain ⟨-, -, -, -, -, -, e30, e31⟩ := idx_facts ⟨(i 1).val / 1024, hlt⟩
  have e31' : win0_3.index ⟨(i 1).val / 1024, hlt⟩ (1 : Fin 2) = (i 1).val / 1024 := e31
  refine ⟨⟨(i 1).val / 1024, hlt⟩, flush0_3 _, ?_⟩
  rw [mem_blk]
  intro a
  match a with
  | ⟨0, _⟩ => show win0_3.index ⟨(i 1).val / 1024, hlt⟩ (0 : Fin 2) * 64 ≤ (i 0).val ∧ (i 0).val < win0_3.index ⟨(i 1).val / 1024, hlt⟩ (0 : Fin 2) * 64 + 64; omega
  | ⟨1, _⟩ => show win0_3.index ⟨(i 1).val / 1024, hlt⟩ (1 : Fin 2) * 1024 ≤ (i 1).val ∧ (i 1).val < win0_3.index ⟨(i 1).val / 1024, hlt⟩ (1 : Fin 2) * 1024 + 1024; omega

/-! ## The result array after the region -/

/-- After the region the result array holds s·W + bias of the arrays the region found. -/
theorem final0 (c : Dev nD) (i : S64x49152.Idx) :
    (Cert.KernelIdeal.Hand.dat0 (F := Ideal) V c).arrAt 3 cfg0.N i
      = Cert.Spec.params (V c main_arg1) (V c main_arg2) (fun j => V c main_v0 (ValueIdx.ix2 0 (j 0))) (i 0) (i 1) :=
  congrFun ((dat0 V c).arrAt_eq_of_cover 3 (G V c) (fun t _ => flushed_eq V c t) cover) i

end Cert.KernelIdeal.Val0

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.Val.V1Pay.lean ====
/-
  The value one tile of region 1 stores, at the extended reals, entry by entry.

  From the tile of x (2048 rows of 64), the scale row, the [64, 512] buffer holding the normalised gate block beside the
  normalised value block, and the [256, 64] buffer holding the normalised projection block, the body stores at (n, d)
      (sum over h of glu(sum over d' of xn[n, d'] · G[d', h], sum over d' of xn[n, d'] · G[d', 256 + h]) · P[h, d]) + x[n, d]
  where xn[n, d'] = x[n, d'] · rsqrt((sum over d'' of x[n, d'']²) / 64 + ε') · scale[d'] and glu(g, v) = g · logistic(g) · v.
  The roundings to the narrower format are the identity at the extended reals, and both products accumulate into zero.
-/
import proofs.«136581_j63823214019112_2_alg».proof.Proof.Gen.KernelIdeal.Skeleton
import proofs.«136581_j63823214019112_2_alg».proof.Proof.Spec
import proofs.«136581_j63823214019112_2_alg».proof.Proof.LibDotPlain
import proofs.«136581_j63823214019112_2_alg».proof.Proof.LibKeepdims
import proofs.«136581_j63823214019112_2_alg».proof.Proof.LibRowReduce
import Idealize.ShloMosaic.Lib.Pipeline.Value
import Idealize.ShloMosaic.Lib.ValueIdx

set_option maxRecDepth 16384

noncomputable section

open scoped BigOperators

namespace Cert.KernelIdeal.Val1P

open Cert.KernelIdeal Cert.KernelIdeal.Gen
open Idealize.ShloMosaic Idealize.ShloMosaic.TcCoe Idealize.SL.Sem Idealize.ShloMosaic.ValueIdx

/-! ## Layout operations at coordinates -/

/-- A [1, a, b] block viewed as [a, b] reads, at (p, q), the block at (0, p, q). -/
theorem shapeCast_1ab_ab_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  (shapeCast_dropUnit_apply ![a, b] x h (ix2 p q)).trans (congrArg x (funext fun ax => by
    match ax with
    | ⟨0, _⟩ => rfl
    | ⟨1, _⟩ => rfl
    | ⟨2, _⟩ => rfl))

/-- An [a, b] array stored as a [1, a, b] block reads, at (u, p, q), the array at (p, q). -/
theorem shapeCast_ab_1ab_apply {α : Type} {a b : ℕ} (x : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ x h (ix3 u p q) = x (ix2 p q) :=
  (shapeCast_addUnit_apply ![a, b] x h (ix3 u p q)).trans (congrArg x (funext fun ax => by
    match ax with
    | ⟨0, _⟩ => rfl
    | ⟨1, _⟩ => rfl))

/-- A row [1, b] broadcast down to [a, b] reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-! ## The two products' dimension numbers -/

/-- The first product: the normalised tile [2048, 64] against the gate|value buffer [64, 512]. -/
abbrev D1 : DotDims S2048x64 S64x512 S2048x512 := dot_S2048x64_S64x512_S2048x512_1_0_0_1_n_n
theorem D1_rank : D1.contr.rank = 1 := rfl
theorem D1_size : D1.contr.size ⟨0, by rw [D1_rank]; exact Nat.one_pos⟩ = 64 := rfl
theorem D1_l0 (i : S2048x512.Idx) (k : D1.contr.Idx) : (D1.lhsIdx i k 0).val = (i 0).val := rfl
theorem D1_l1 (i : S2048x512.Idx) (k : D1.contr.Idx) : (D1.lhsIdx i k 1).val = (k ⟨0, by rw [D1_rank]; exact Nat.one_pos⟩).val :=
  D1.lhsIdx_val_of_single (cl := 1) rfl i k
theorem D1_r0 (i : S2048x512.Idx) (k : D1.contr.Idx) : (D1.rhsIdx i k 0).val = (k ⟨0, by rw [D1_rank]; exact Nat.one_pos⟩).val :=
  D1.rhsIdx_val_of_single (cr := 0) rfl i k
theorem D1_r1 (i : S2048x512.Idx) (k : D1.contr.Idx) : (D1.rhsIdx i k 1).val = (i 1).val := rfl

/-- The second product: the hidden activations [2048, 256] against the projection buffer [256, 64]. -/
abbrev D2 : DotDims S2048x256 S256x64 S2048x64 := dot_S2048x256_S256x64_S2048x64_1_0_0_1_n_n
theorem D2_rank : D2.contr.rank = 1 := rfl
theorem D2_size : D2.contr.size ⟨0, by rw [D2_rank]; exact Nat.one_pos⟩ = 256 := rfl
theorem D2_l0 (i : S2048x64.Idx) (k : D2.contr.Idx) : (D2.lhsIdx i k 0).val = (i 0).val := rfl
theorem D2_l1 (i : S2048x64.Idx) (k : D2.contr.Idx) : (D2.lhsIdx i k 1).val = (k ⟨0, by rw [D2_rank]; exact Nat.one_pos⟩).val :=
  D2.lhsIdx_val_of_single (cl := 1) rfl i k
theorem D2_r0 (i : S2048x64.Idx) (k : D2.contr.Idx) : (D2.rhsIdx i k 0).val = (k ⟨0, by rw [D2_rank]; exact Nat.one_pos⟩).val :=
  D2.rhsIdx_val_of_single (cr := 0) rfl i k
theorem D2_r1 (i : S2048x64.Idx) (k : D2.contr.Idx) : (D2.rhsIdx i k 1).val = (i 1).val := rfl

/-! ## The stages of the stored value -/

/-- The RMS-normalised, scaled tile: the left operand of the first product before its rounding. -/
def xnTile (x0 : Vec Ideal S1x2048x64 .f32) (x4 : Vec Ideal S1x64 .f32) : FVec Ideal S2048x64 .f32 :=
  have v4 : FVec Ideal S2048x64 .f32 := shapeCast S2048x64 x0 shapeCasts_S1x2048x64_S2048x64
  have v5 : FVec Ideal S2048x64 .f32 := mulf v4 v4
  have v6 : FVec Ideal S2048 .f32 := multiReduction .add [1] S2048 v5 0x00000000#32 reduces_S2048x64_S2048 (.inl rfl) rfl
  have v7 : FVec Ideal S2048x1 .f32 := shapeCast S2048x1 v6 shapeCasts_S2048_S2048x1
  have cst_3 : Ideal .f32 := Scalar.ofBits .f32 0x42800000#32
  have v8 : FVec Ideal S2048x1 .f32 := broadcast S2048x1 cst_3
  have v9 : FVec Ideal S2048x1 .f32 := divf v7 v8
  have cst_4 : Ideal .f32 := Scalar.ofBits .f32 0x358637BD#32
  have v10 : FVec Ideal S2048x1 .f32 := broadcast S2048x1 cst_4
  have v11 : FVec Ideal S2048x1 .f32 := addf v9 v10
  have v12 : FVec Ideal S2048x1 .f32 := rsqrt v11
  have v13 : FVec Ideal S2048x64 .f32 := broadcastTo S2048x64 v12 broadcasts_S2048x1_S2048x64
  have v14 : FVec Ideal S2048x64 .f32 := mulf v4 v13
  have v16 : FVec Ideal S1x64 .f32 := shapeCast S1x64 x4 shapeCasts_S1x64_S1x64
  have v17 : FVec Ideal S2048x64 .f32 := broadcastTo S2048x64 v16 broadcasts_S1x64_S2048x64
  mulf v14 v17

/-- The hidden activations from the first product's [2048, 512] result: its left half times its own logistic times
    its right half. -/
def hidTile (v21 : FVec Ideal S2048x512 .f32) : FVec Ideal S2048x256 .f32 :=
  have v22 : FVec Ideal S2048x256 .f32 := extractStridedSlice S2048x256 ![0, 0] v21 slices_S2048x512_o0_0_S2048x256
  have v23 : FVec Ideal S2048x256 .f32 := extractStridedSlice S2048x256 ![0, 256] v21 slices_S2048x512_o0_256_S2048x256
  have v24 : FVec Ideal S2048x256 .f32 := logistic v22
  have v25 : FVec Ideal S2048x256 .f32 := mulf v22 v24
  mulf v25 v23

/-- The stored value is those stages composed: normalise, multiply, activate, multiply, add x back. -/
theorem pay2_eq (x0 : Vec Ideal S1x2048x64 .f32) (x4 : Vec Ideal S1x64 .f32) (s0 : Vec Ideal S64x512 .bf16) (s1 : Vec Ideal S256x64 .bf16) :
    k1_pay2 x0 x4 s0 s1 =
      shapeCast S1x2048x64 (addf
        (matmul (φ₂ := .bf16) D2 none (truncf .bf16 (hidTile (matmul (φ₂ := .bf16) D1 none (truncf .bf16 (xnTile x0 x4) bitsLt_bf16_f32) s0
          (constant (F := Ideal) S2048x512 .f32 0x00000000#32))) bitsLt_bf16_f32) s1 (constant (F := Ideal) S2048x64 .f32 0x00000000#32))
        (shapeCast S2048x64 x0 shapeCasts_S1x2048x64_S2048x64)) shapeCasts_S2048x64_S1x2048x64 := rfl

/-! ## The stages read at an entry -/

/-- A reciprocal square root and a logistic of an array of exact values are taken entry by entry. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The RMS-normalised, scaled entry of a tile row. -/
def rowN (x0 : Vec Ideal S1x2048x64 .f32) (x4 : Vec Ideal S1x64 .f32) (n : Fin 2048) (d : Fin 64) : EReal :=
  x0 (ValueIdx.ix3 0 n d) * Ideal.rsqrt (Ideal.div (∑ d' : Fin 64, x0 (ValueIdx.ix3 0 n d') * x0 (ValueIdx.ix3 0 n d')) Cert.Spec.c64 + Cert.Spec.epsR) * x4 (ValueIdx.ix2 0 d)

/-- The sum of the squares of tile row n. -/
theorem sumsq_apply (x0 : Vec Ideal S1x2048x64 .f32) (n : Fin 2048) :
    multiReduction (F := Ideal) .add [1] S2048 (mulf (shapeCast S2048x64 x0 shapeCasts_S1x2048x64_S2048x64) (shapeCast S2048x64 x0 shapeCasts_S1x2048x64_S2048x64))
      0x00000000#32 reduces_S2048x64_S2048 (.inl rfl) rfl (ix1 n) = ∑ d' : Fin 64, x0 (ix3 0 n d') * x0 (ix3 0 n d') := by
  refine (multiReduction_add_row _ _ _ _ n).trans ?_
  simp only [mulf_apply, shapeCast_1ab_ab_apply]

/-- The normalised tile at (n, d). -/
theorem xnTile_apply (x0 : Vec Ideal S1x2048x64 .f32) (x4 : Vec Ideal S1x64 .f32) (n : Fin 2048) (d : Fin 64) :
    xnTile x0 x4 (ix2 n d) = rowN x0 x4 n d := by
  unfold xnTile rowN
  rw [mulf_apply, mulf_apply, broadcastTo_1b_ab_apply, broadcastTo_a1_ab_apply, shapeCast_self, shapeCast_1ab_ab_apply,
    rsqrt_apply, addf_apply, divf_apply, broadcast_apply, broadcast_apply, shapeCast_a_a1_apply, sumsq_apply]
  rfl

/-- The hidden activations at (n, h), from the two halves of the first product's row n. -/
theorem hidTile_apply (v21 : FVec Ideal S2048x512 .f32) (n : Fin 2048) (h : Fin 256) :
    hidTile v21 (ix2 n h) = Cert.Spec.glu (v21 (ix2 n (⟨h.val, by omega⟩ : Fin 512))) (v21 (ix2 n (⟨256 + h.val, by omega⟩ : Fin 512))) := by
  have e0 : extractStridedSlice S2048x256 ![0, 0] v21 slices_S2048x512_o0_0_S2048x256 (ix2 n h) = v21 (ix2 n (⟨h.val, by omega⟩ : Fin 512)) :=
    extractStridedSlice_apply ![0, 0] v21 slices_S2048x512_o0_0_S2048x256 (ix2 n h) (ix2 n (⟨h.val, by omega⟩ : Fin 512)) (fun a => by
      match a with
      | ⟨0, _⟩ => show n.val = 0 + n.val; omega
      | ⟨1, _⟩ => show h.val = 0 + h.val; omega)
  have e1 : extractStridedSlice S2048x256 ![0, 256] v21 slices_S2048x512_o0_256_S2048x256 (ix2 n h) = v21 (ix2 n (⟨256 + h.val, by omega⟩ : Fin 512)) :=
    extractStridedSlice_apply ![0, 256] v21 slices_S2048x512_o0_256_S2048x256 (ix2 n h) (ix2 n (⟨256 + h.val, by omega⟩ : Fin 512)) (fun a => by
      match a with
      | ⟨0, _⟩ => show n.val = 0 + n.val; omega
      | ⟨1, _⟩ => show 256 + h.val = 256 + h.val; rfl)
  unfold hidTile
  rw [mulf_apply, mulf_apply, logistic_apply, e0, e1]
  rfl

/-- The first product at (n, c): row n of the normalised tile against column c of the gate|value buffer. -/
theorem prod1_apply (x0 : Vec Ideal S1x2048x64 .f32) (x4 : Vec Ideal S1x64 .f32) (s0 : Vec Ideal S64x512 .bf16) (n : Fin 2048) (c : Fin 512) :
    matmul (φ₂ := .bf16) D1 none (truncf .bf16 (xnTile x0 x4) bitsLt_bf16_f32) s0 (constant (F := Ideal) S2048x512 .f32 0x00000000#32) (ix2 n c)
      = ∑ d' : Fin 64, rowN x0 x4 n d' * s0 (ix2 d' c) := by
  refine (Cert.LibDotPlain.matmul_zero_plain (φ₂ := .bf16) D1 D1_rank D1_size D1_l0 D1_l1 D1_r0 D1_r1 none _ s0 n c).trans ?_
  refine Finset.sum_congr rfl fun k _ => ?_
  rw [truncf_apply, xnTile_apply]

/-- The value one tile stores, at (0, n, d). -/
theorem pay2_apply (x0 : Vec Ideal S1x2048x64 .f32) (x4 : Vec Ideal S1x64 .f32) (s0 : Vec Ideal S64x512 .bf16) (s1 : Vec Ideal S256x64 .bf16) (n : Fin 2048) (d : Fin 64) :
    Gen.k1_pay2 (F := Ideal) x0 x4 s0 s1 (ValueIdx.ix3 0 n d)
      = (∑ h : Fin 256, Cert.Spec.glu (∑ d' : Fin 64, rowN x0 x4 n d' * s0 (ValueIdx.ix2 d' (⟨h.val, by omega⟩ : Fin 512)))
                                      (∑ d' : Fin 64, rowN x0 x4 n d' * s0 (ValueIdx.ix2 d' (⟨256 + h.val, by omega⟩ : Fin 512)))
            * s1 (ValueIdx.ix2 h d))
        + x0 (ValueIdx.ix3 0 n d) := by
  rw [pay2_eq, shapeCast_ab_1ab_apply, addf_apply, shapeCast_1ab_ab_apply]
  congr 1
  refine (Cert.LibDotPlain.matmul_zero_plain (φ₂ := .bf16) D2 D2_rank D2_size D2_l0 D2_l1 D2_r0 D2_r1 none _ s1 n d).trans ?_
  refine Finset.sum_congr rfl fun h _ => ?_
  rw [truncf_apply, hidTile_apply, prod1_apply, prod1_apply]

end Cert.KernelIdeal.Val1P

end
-- ==== Proof.Val.V1Norm.lean ====
/-
  The weight normalisation of region 1, read entry by entry at the extended reals. At the first row tile of a batch
  the body takes each of the batch's three weight blocks ([1, 64, 256] gate, [1, 64, 256] value, [1, 256, 64]
  projection) as a matrix, divides every entry by the larger of its column's Euclidean norm and ε, and keeps the
  result: gate and value side by side in a [64, 512] buffer (gate in columns 0–255, value in columns 256–511), the
  projection in a [256, 64] buffer. Each kept entry is
      w[i, j] / max(sqrt(sum over i' of w[i', j]²), ε),
  w the block's matrix: the sum of squares down a column is a finite sum over the column's rows, the square root and
  the maximum act on that one number, the row of column norms is repeated down the rows, and the rounding to the
  narrower format is the identity at the extended reals.
-/
import proofs.«136581_j63823214019112_2_alg».proof.Proof.KI.R1
import proofs.«136581_j63823214019112_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val1N

open Cert.KernelIdeal Cert.KernelIdeal.Gen Cert.KernelIdeal.Hand
open Idealize.ShloMosaic Idealize.ShloMosaic.TcCoe Idealize.SL.Sem Idealize.ShloMosaic.ValueIdx

/-- A [1, A, B] block cast to [A, B], each entry divided by the larger of its column's Euclidean norm and ε: the
    column normalisation of the block's A × B matrix, entry by entry. -/
theorem colNorm_apply {A B : Nat} (x : FVec Ideal ⟨3, ![1, A, B]⟩ .f32)
    (hc1 : (⟨3, ![1, A, B]⟩ : Shape).ShapeCasts ⟨2, ![A, B]⟩)
    (hr : (⟨2, ![A, B]⟩ : Shape).Reduces [0] ⟨1, ![B]⟩) (hφ : FKind.Formats .f32)
    (hacc : (0x00000000#32 : BitVec 32) = FKind.add.neutral .f32 hφ)
    (hc2 : (⟨1, ![B]⟩ : Shape).ShapeCasts ⟨2, ![1, B]⟩)
    (hb : (⟨2, ![1, B]⟩ : Shape).Broadcasts ⟨2, ![A, B]⟩)
    (a : Fin A) (b : Fin B) :
    divf (shapeCast ⟨2, ![A, B]⟩ x hc1)
        (broadcastTo ⟨2, ![A, B]⟩
          (maximumf (sqrt (shapeCast ⟨2, ![1, B]⟩ (multiReduction .add [0] ⟨1, ![B]⟩
              (mulf (shapeCast ⟨2, ![A, B]⟩ x hc1) (shapeCast ⟨2, ![A, B]⟩ x hc1)) 0x00000000#32 hr hφ hacc) hc2))
            (broadcast ⟨2, ![1, B]⟩ (Scalar.ofBits .f32 0x2B8CBCCC#32))) hb) (ix2 a b)
      = Cert.Spec.colNorm (fun (a : Fin A) (b : Fin B) => x (ix3 0 a b)) a b := by
  have hcast : ∀ (a : Fin A) (b : Fin B), shapeCast ⟨2, ![A, B]⟩ x hc1 (ix2 a b) = x (ix3 0 a b) := fun a b =>
    shapeCast_apply x hc1 (ix2 a b) (ix3 0 a b) (by
      rw [Shape.rowMajor_val_three, Shape.rowMajor_val_two]
      show ((0 : Nat) * A + a.val) * B + b.val = a.val * B + b.val
      rw [Nat.zero_mul, Nat.zero_add])
  unfold Cert.Spec.colNorm
  rw [divf_apply, hcast]
  congr 1
  rw [broadcastTo_apply _ hb (ix2 a b) (ix2 0 b) (fun c => by
    match c with
    | ⟨0, _⟩ => rfl
    | ⟨1, _⟩ =>
      show b.val = if B = 1 then 0 else b.val
      split
      · have := b.isLt; omega
      · rfl)]
  rw [maximumf_apply]
  congr 1
  show Ideal.sqrt (shapeCast ⟨2, ![1, B]⟩ _ hc2 (ix2 0 b)) = Ideal.sqrt _
  congr 1
  rw [shapeCast_apply _ hc2 (ix2 0 b) (ix1 b) (by
    rw [Shape.rowMajor_val_one, Shape.rowMajor_val_two]
    show b.val = (0 : Nat) * B + b.val
    rw [Nat.zero_mul, Nat.zero_add])]
  refine (Ideal.multiReduction_add_single _ _ hr hφ hacc (ix1 b)).trans ?_
  refine Finset.sum_congr rfl fun k _ => ?_
  rw [mulf_apply]
  have hl : hr.lift (ix1 b) k = ix2 k b := funext fun c => Fin.ext (by
    match c with
    | ⟨0, _⟩ => rfl
    | ⟨1, _⟩ => rfl)
  rw [hl]
  exact congrArg₂ (· * ·) (hcast k b) (hcast k b)

/-! ## The three normalising payloads at an entry -/

/-- The gate block's payload: the block's [64, 256] matrix, column-normalised. -/
theorem pay3_apply (x1 : Vec Ideal S1x64x256 .f32) (d : Fin 64) (h : Fin 256) :
    Gen.k1_pay3 (F := Ideal) x1 (ValueIdx.ix2 d h) = Cert.Spec.colNorm (fun (d : Fin 64) (h : Fin 256) => x1 (ValueIdx.ix3 0 d h)) d h := by
  unfold k1_pay3
  rw [shapeCast_self, truncf_apply]
  exact colNorm_apply x1 _ _ _ _ _ _ d h

/-- The value block's payload: the same function of its block. -/
theorem pay4_apply (x2 : Vec Ideal S1x64x256 .f32) (d : Fin 64) (h : Fin 256) :
    Gen.k1_pay4 (F := Ideal) x2 (ValueIdx.ix2 d h) = Cert.Spec.colNorm (fun (d : Fin 64) (h : Fin 256) => x2 (ValueIdx.ix3 0 d h)) d h := by
  unfold k1_pay4
  rw [shapeCast_self, truncf_apply]
  exact colNorm_apply x2 _ _ _ _ _ _ d h

/-- The projection block's payload: the block's [256, 64] matrix, column-normalised. -/
theorem pay5_apply (x3 : Vec Ideal S1x256x64 .f32) (h : Fin 256) (d : Fin 64) :
    Gen.k1_pay1 (F := Ideal) (Gen.k1_pay5 x3) (ValueIdx.ix2 h d) = Cert.Spec.colNorm (fun (h : Fin 256) (d : Fin 64) => x3 (ValueIdx.ix3 0 h d)) h d := by
  unfold k1_pay1 k1_pay5
  rw [shapeCast_self, truncf_apply]
  exact colNorm_apply x3 _ _ _ _ _ _ h d

/-! ## The two scratch buffers read at an entry -/

theorem hz2 : (![0, 0] : Fin 2 → Nat) = fun _ => 0 := funext fun a => by fin_cases a <;> rfl
theorem hz3 : (![0, 0, 0] : Fin 3 → Nat) = fun _ => 0 := funext fun a => by fin_cases a <;> rfl

/-- Columns 0–255 of the [64, 512] scratch hold the normalised gate block: they lie off the later store's slab
    (columns 256–511) and under the earlier one's. -/
theorem gv1_gate (x1 x2 : Vec Ideal S1x64x256 .f32) (d : Fin 64) (h : Fin 256) :
    Hand.gv1 (F := Ideal) x1 x2 (ValueIdx.ix2 d (⟨h.val, by omega⟩ : Fin 512)) = Cert.Spec.colNorm (fun (d : Fin 64) (h : Fin 256) => x1 (ValueIdx.ix3 0 d h)) d h := by
  have hh : h.val < 256 := h.isLt
  have hy : (ix2 d (⟨h.val, by omega⟩ : Fin 512) : S64x512.Idx) = rG.emb (ix2 d h : S64x256.Idx) := funext fun a => Fin.ext (by
    match a with
    | ⟨0, _⟩ => show d.val = 0 + 1 * d.val; omega
    | ⟨1, _⟩ => show h.val = 0 + 1 * h.val; omega)
  unfold gv1
  rw [View.canon_cons_of_not_mem _ _ (by
    show (ix2 d (⟨h.val, by omega⟩ : Fin 512) : S64x512.Idx) ∉ rV.set
    rw [Rect.mem_set_unit]
    intro hm
    have h1 : 256 ≤ h.val := (hm 1).1
    omega)]
  rw [hy, View.canon_cons_emb, View.ld_unit_zero (S := S1x64x256) hz3]
  exact pay3_apply x1 d h

/-- Columns 256–511 hold the normalised value block: they lie under the later store's slab. -/
theorem gv1_value (x1 x2 : Vec Ideal S1x64x256 .f32) (d : Fin 64) (h : Fin 256) :
    Hand.gv1 (F := Ideal) x1 x2 (ValueIdx.ix2 d (⟨256 + h.val, by omega⟩ : Fin 512)) = Cert.Spec.colNorm (fun (d : Fin 64) (h : Fin 256) => x2 (ValueIdx.ix3 0 d h)) d h := by
  have hh : h.val < 256 := h.isLt
  have hy : (ix2 d (⟨256 + h.val, by omega⟩ : Fin 512) : S64x512.Idx) = rV.emb (ix2 d h : S64x256.Idx) := funext fun a => Fin.ext (by
    match a with
    | ⟨0, _⟩ => show d.val = 0 + 1 * d.val; omega
    | ⟨1, _⟩ => show 256 + h.val = 256 + 1 * h.val; omega)
  unfold gv1
  rw [hy, View.canon_cons_emb, View.ld_unit_zero (S := S1x64x256) hz3]
  exact pay4_apply x2 d h

/-- The [256, 64] scratch holds the normalised projection block: its one store is whole. -/
theorem fn1_apply (x3 : Vec Ideal S1x256x64 .f32) (h : Fin 256) (d : Fin 64) :
    Hand.fn1 (F := Ideal) x3 (ValueIdx.ix2 h d) = Cert.Spec.colNorm (fun (h : Fin 256) (d : Fin 64) => x3 (ValueIdx.ix3 0 h d)) h d := by
  unfold fn1
  rw [View.canon_unit_zero hz2, View.ld_unit_zero (S := S1x256x64) hz3]
  exact pay5_apply x3 h d

end Cert.KernelIdeal.Val1N

end
-- ==== Proof.Val.V1.lean ====
/-
  The value of region 1 at the extended reals: after its 128 grid points the [64, 4096, 64] result array holds, at
  (b, n, d),
      (sum over h of glu(gate[b, n, h], value[b, n, h]) · f̂[b, h, d]) + x[b, n, d]
  with gate and value the products of the RMS-normalised, scaled row n of x with the column-normalised gate and value
  weights of batch b, and f̂ the column-normalised projection weights of batch b.

  Point t is batch t / 2, row tile t % 2. It reads rows 2048·(t % 2) … of batch t / 2 of x and the whole scale row; the
  two scratch buffers hold, at BOTH tiles of a batch, the normalised weight blocks of that batch (computed at the
  first tile from the blocks of batch t / 2, kept at the second, whose point before is the first tile of the same
  batch). The block written back at point t is therefore block t of one function of the arrays the region found;
  row n of batch b lies in the block of point 2·b + n / 2048, so the blocks cover the result array.
-/
import proofs.«136581_j63823214019112_2_alg».proof.Proof.KI.R1
import proofs.«136581_j63823214019112_2_alg».proof.Proof.Spec
import proofs.«136581_j63823214019112_2_alg».proof.Proof.Val.V1Pay
import proofs.«136581_j63823214019112_2_alg».proof.Proof.Val.V1Norm
import Idealize.ShloMosaic.Lib.Pipeline.Value
import Idealize.ShloMosaic.Lib.ValueIdx

set_option maxRecDepth 16384

noncomputable section

open scoped BigOperators

namespace Cert.KernelIdeal.Val1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The function the region computes -/

/-- The result at an index, from the five arrays the region reads: x, the scale row, and the gate, value and
    projection weights. -/
def tileFun (X : S64x4096x64.Idx → EReal) (Sc : S1x64.Idx → EReal) (Wg Wv : S64x64x256.Idx → EReal)
    (Wp : S64x256x64.Idx → EReal) (i : S64x4096x64.Idx) : EReal :=
  (∑ h : Fin 256, Cert.Spec.glu
        (∑ d : Fin 64, Cert.Spec.xnorm X (fun j => Sc (ix2 0 (j 0))) (i 0) (i 1) d * Cert.Spec.colNorm (fun d h => Wg (ix3 (i 0) d h)) d h)
        (∑ d : Fin 64, Cert.Spec.xnorm X (fun j => Sc (ix2 0 (j 0))) (i 0) (i 1) d * Cert.Spec.colNorm (fun d h => Wv (ix3 (i 0) d h)) d h)
      * Cert.Spec.colNorm (fun h d => Wp (ix3 (i 0) h d)) h (i 2))
    + X i

/-- One tile's stored value is the tile of that function: over variables of the literal block types, given that
    the tile of x is rows 2048·r … of batch b, the scale row is the scale row, and the two scratch buffers hold the
    column-normalised weight blocks of batch b. -/
theorem tile_value (x0 : Vec Ideal S1x2048x64 .f32) (x4 : Vec Ideal S1x64 .f32) (s0 : Vec Ideal S64x512 .bf16) (s1 : Vec Ideal S256x64 .bf16)
    (X : S64x4096x64.Idx → EReal) (Sc : S1x64.Idx → EReal) (Wg Wv : S64x64x256.Idx → EReal) (Wp : S64x256x64.Idx → EReal)
    (b : Fin 64) (r : Fin 2)
    (hx0 : ∀ (n : Fin 2048) (d : Fin 64), x0 (ix3 (0 : Fin 1) n d) = X (ix3 b (⟨r.val * 2048 + n.val, by omega⟩ : Fin 4096) d))
    (hx4 : ∀ d : Fin 64, x4 (ix2 (0 : Fin 1) d) = Sc (ix2 (0 : Fin 1) d))
    (hg : ∀ (d : Fin 64) (h : Fin 256), s0 (ix2 d (⟨h.val, by omega⟩ : Fin 512)) = Cert.Spec.colNorm (fun d h => Wg (ix3 b d h)) d h)
    (hv : ∀ (d : Fin 64) (h : Fin 256), s0 (ix2 d (⟨256 + h.val, by omega⟩ : Fin 512)) = Cert.Spec.colNorm (fun d h => Wv (ix3 b d h)) d h)
    (hp : ∀ (h : Fin 256) (d : Fin 64), s1 (ix2 h d) = Cert.Spec.colNorm (fun h d => Wp (ix3 b h d)) h d)
    (n : Fin 2048) (d : Fin 64) :
    k1_pay2 (F := Ideal) x0 x4 s0 s1 (ix3 (0 : Fin 1) n d)
      = tileFun X Sc Wg Wv Wp (ix3 b (⟨r.val * 2048 + n.val, by omega⟩ : Fin 4096) d) := by
  have hrow : ∀ d' : Fin 64, Val1P.rowN x0 x4 n d'
      = Cert.Spec.xnorm X (fun j => Sc (ix2 0 (j 0))) b (⟨r.val * 2048 + n.val, by omega⟩ : Fin 4096) d' := by
    intro d'
    unfold Val1P.rowN Cert.Spec.xnorm
    simp only [hx0, hx4]
  rw [Val1P.pay2_apply]
  unfold tileFun
  simp only [hrow, hg, hv, hp, hx0]

/-! ## The grid: where each window's block sits -/

variable (V : (c : Dev nD) → (b : Ref sig .tc) → Buf (Elt Ideal) ((c : Thread nD τ).loc b))

/-- The printed index maps, decided over the grid: point t is batch t / 2 and row tile t % 2; x and the result move
    with both, the three weight windows with the batch only, the scale row not at all. -/
theorem idx_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = t.val / 2 ∧ win1_5.index t (1 : Fin 3) = t.val % 2 ∧ win1_5.index t (2 : Fin 3) = 0 :=
  (by decide +kernel : ∀ t : Fin grid1.N, _)

/-- A point's batch and row tile, as coordinates of the literal extents. -/
def batchOf (t : Fin cfg1.N) : Fin 64 :=
  ⟨t.val / 2, by have hN : t.val < 128 := lt_of_lt_of_eq t.isLt (show cfg1.N = 128 from N_1); omega⟩
def tileOf (t : Fin cfg1.N) : Fin 2 := ⟨t.val % 2, by omega⟩

/-! ## Each input block, read where its window's rectangle says -/

/-- The tile of x at point t is rows 2048·(t % 2) … of batch t / 2. -/
theorem blk0_read (c : Dev nD) (t : Fin cfg1.N) (n : Fin 2048) (d : Fin 64) :
    iblk1 V c 0 t (ix3 (0 : Fin 1) n d) = V c main_arg0 (ix3 (batchOf t) (⟨(tileOf t).val * 2048 + n.val, by have := (tileOf t).isLt; omega⟩ : Fin 4096) d) := by
  obtain ⟨e0, e1, e2, -⟩ := idx_facts1 t
  show V c main_arg0 (((cfg1.win 0).blk t).view.emb (ix3 (0 : Fin 1) n d)) = _
  refine congrArg (V c main_arg0) (funext fun a => Fin.ext ?_)
  match a with
  | ⟨0, _⟩ => show win1_0.index t (0 : Fin 3) * 1 + 1 * 0 = t.val / 2; omega
  | ⟨1, _⟩ => show win1_0.index t (1 : Fin 3) * 2048 + 1 * n.val = t.val % 2 * 2048 + n.val; omega
  | ⟨2, _⟩ => show win1_0.index t (2 : Fin 3) * 64 + 1 * d.val = d.val; omega

/-- The gate weights' block at point t is batch t / 2's. -/
theorem blk1_read (c : Dev nD) (t : Fin cfg1.N) (d : Fin 64) (h : Fin 256) :
    iblk1 V c 1 t (ix3 (0 : Fin 1) d h) = V c main_v3 (ix3 (batchOf t) d h) := by
  obtain ⟨-, -, -, e0, e1, e2, -⟩ := idx_facts1 t
  show V c main_v3 (((cfg1.win 1).blk t).view.emb (ix3 (0 : Fin 1) d h)) = _
  refine congrArg (V c main_v3) (funext fun a => Fin.ext ?_)
  match a with
  | ⟨0, _⟩ => show win1_1.index t (0 : Fin 3) * 1 + 1 * 0 = t.val / 2; omega
  | ⟨1, _⟩ => show win1_1.index t (1 : Fin 3) * 64 + 1 * d.val = d.val; omega
  | ⟨2, _⟩ => show win1_1.index t (2 : Fin 3) * 256 + 1 * h.val = h.val; omega

/-- The value weights' block likewise. -/
theorem blk2_read (c : Dev nD) (t : Fin cfg1.N) (d : Fin 64) (h : Fin 256) :
    iblk1 V c 2 t (ix3 (0 : Fin 1) d h) = V c main_v5 (ix3 (batchOf t) d h) := by
  obtain ⟨-, -, -, -, -, -, e0, e1, e2, -⟩ := idx_facts1 t
  show V c main_v5 (((cfg1.win 2).blk t).view.emb (ix3 (0 : Fin 1) d h)) = _
  refine congrArg (V c main_v5) (funext fun a => Fin.ext ?_)
  match a with
  | ⟨0, _⟩ => show win1_2.index t (0 : Fin 3) * 1 + 1 * 0 = t.val / 2; omega
  | ⟨1, _⟩ => show win1_2.index t (1 : Fin 3) * 64 + 1 * d.val = d.val; omega
  | ⟨2, _⟩ => show win1_2.index t (2 : Fin 3) * 256 + 1 * h.val = h.val; omega

/-- The projection weights' block likewise. -/
theorem blk3_read (c : Dev nD) (t : Fin cfg1.N) (h : Fin 256) (d : Fin 64) :
    iblk1 V c 3 t (ix3 (0 : Fin 1) h d) = V c main_v7 (ix3 (batchOf t) h d) := by
  obtain ⟨-, -, -, -, -, -, -, -, -, e0, e1, e2, -⟩ := idx_facts1 t
  show V c main_v7 (((cfg1.win 3).blk t).view.emb (ix3 (0 : Fin 1) h d)) = _
  refine congrArg (V c main_v7) (funext fun a => Fin.ext ?_)
  match a with
  | ⟨0, _⟩ => show win1_3.index t (0 : Fin 3) * 1 + 1 * 0 = t.val / 2; omega
  | ⟨1, _⟩ => show win1_3.index t (1 : Fin 3) * 256 + 1 * h.val = h.val; omega
  | ⟨2, _⟩ => show win1_3.index t (2 : Fin 3) * 64 + 1 * d.val = d.val; omega

/-- The scale row's block is the whole row at every point. -/
theorem blk4_read (c : Dev nD) (t : Fin cfg1.N) (d : Fin 64) :
    iblk1 V c 4 t (ix2 (0 : Fin 1) d) = V c main_v8 (ix2 (0 : Fin 1) d) := by
  obtain ⟨-, -, -, -, -, -, -, -, -, -, -, -, e0, e1, -⟩ := idx_facts1 t
  show V c main_v8 (((cfg1.win 4).blk t).view.emb (ix2 (0 : Fin 1) d)) = _
  refine congrArg (V c main_v8) (funext fun a => Fin.ext ?_)
  match a with
  | ⟨0, _⟩ => show win1_4.index t (0 : Fin 2) * 1 + 1 * 0 = 0; omega
  | ⟨1, _⟩ => show win1_4.index t (1 : Fin 2) * 64 + 1 * d.val = d.val; omega

/-! ## The scratch buffers at any point: the normalised weight blocks of the point's batch -/

/-- At both tiles of a batch the scratch buffers hold what the batch's FIRST tile computed from its weight blocks: a
    first tile computes them itself; a second tile keeps what the point before — the first tile of the same batch —
    left. -/
theorem scr_eq (c : Dev nD) (t : Fin cfg1.N) : ∃ t' : Fin cfg1.N, batchOf t' = batchOf t ∧
    scrAt1 V c t.val t.isLt = (gv1 (iblk1 V c 1 t') (iblk1 V c 2 t'), fn1 (iblk1 V c 3 t')) := by
  by_cases h0 : t.val % 2 = 0
  · exact ⟨t, rfl, scrAt1_even V c t h0⟩
  · have hlt : t.val - 1 < cfg1.N := Nat.lt_of_le_of_lt (Nat.sub_le _ _) t.isLt
    refine ⟨⟨t.val - 1, hlt⟩, Fin.ext ?_, (scrAt1_odd V c t h0).trans (scrAt1_even V c ⟨t.val - 1, hlt⟩ ?_)⟩
    · show (t.val - 1) / 2 = t.val / 2; omega
    · show (t.val - 1) % 2 = 0; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The function of the arrays as the region finds them. -/
abbrev G1 (c : Dev nD) : S64x4096x64.Idx → EReal :=
  tileFun (V c main_arg0) (V c main_v8) (V c main_v3) (V c main_v5) (V c main_v7)

/-- What the body leaves in the result window's buffer at point t is the stored value of the tile of x, the scale row
    and the two scratch buffers as the point's batch has them: the body's one whole store, its loads whole. -/
theorem after5_eq (c : Dev nD) (t t' : Fin cfg1.N)
    (hs : scrAt1 V c t.val t.isLt = (gv1 (iblk1 V c 1 t') (iblk1 V c 2 t'), fn1 (iblk1 V c 3 t'))) :
    (dat1 (F := Ideal) V c).after 5 t
      = k1_pay2 (F := Ideal) (iblk1 V c 0 t) (iblk1 V c 4 t) (gv1 (iblk1 V c 1 t') (iblk1 V c 2 t')) (fn1 (iblk1 V c 3 t')) := by
  rw [after1_5, hs]
  unfold out1_5
  rw [View.canon_unit_zero hz3]
  simp only [View.ld_unit_zero (S := S1x2048x64) hz3, View.ld_unit_zero (S := S1x64) hz2,
    View.ld_unit_zero (S := S64x512) hz2, View.ld_unit_zero (S := S256x64) hz2]

/-- That value at (0, n, d) is the region's function at row 2048·(t % 2) + n of batch t / 2. -/
theorem tile_at (c : Dev nD) (t t' : Fin cfg1.N) (hb : batchOf t' = batchOf t) (n : Fin 2048) (d : Fin 64) :
    k1_pay2 (F := Ideal) (iblk1 V c 0 t) (iblk1 V c 4 t) (gv1 (iblk1 V c 1 t') (iblk1 V c 2 t')) (fn1 (iblk1 V c 3 t')) (ix3 (0 : Fin 1) n d)
      = G1 V c (ix3 (batchOf t) (⟨(tileOf t).val * 2048 + n.val, by have := (tileOf t).isLt; omega⟩ : Fin 4096) d) :=
  tile_value (iblk1 V c 0 t) (iblk1 V c 4 t) (gv1 (iblk1 V c 1 t') (iblk1 V c 2 t')) (fn1 (iblk1 V c 3 t'))
    (V c main_arg0) (V c main_v8) (V c main_v3) (V c main_v5) (V c main_v7) (batchOf t) (tileOf t)
    (fun n d => blk0_read V c t n d) (fun d => blk4_read V c t d)
    (fun d h => (Val1N.gv1_gate (iblk1 V c 1 t') (iblk1 V c 2 t') d h).trans
      (congrArg (fun w => Cert.Spec.colNorm w d h) (funext fun d' => funext fun h' => (blk1_read V c t' d' h').trans (by rw [hb]))))
    (fun d h => (Val1N.gv1_value (iblk1 V c 1 t') (iblk1 V c 2 t') d h).trans
      (congrArg (fun w => Cert.Spec.colNorm w d h) (funext fun d' => funext fun h' => (blk2_read V c t' d' h').trans (by rw [hb]))))
    (fun h d => (Val1N.fn1_apply (iblk1 V c 3 t') h d).trans
      (congrArg (fun w => Cert.Spec.colNorm w h d) (funext fun h' => funext fun d' => (blk3_read V c t' h' d').trans (by rw [hb]))))
    n d

/-- WHAT POINT t WRITES BACK is block t of that function. -/
theorem flushed_eq (c : Dev nD) (t : Fin cfg1.N) :
    (dat1 (F := Ideal) V c).flushed 5 t = ((cfg1.win 5).blk t).view.read (Elt Ideal) (G1 V c) := by
  obtain ⟨t', hb, hs⟩ := scr_eq V c t
  show (cfg1.win 5).cut (grid1.coords t) ((dat1 V c).after 5 t) = _
  rw [after5_eq V c t t' hs]
  funext y
  obtain ⟨e0, e1, e2⟩ : win1_5.index t (0 : Fin 3) = t.val / 2 ∧ win1_5.index t (1 : Fin 3) = t.val % 2 ∧ win1_5.index t (2 : Fin 3) = 0 := by
    obtain ⟨-, -, -, -, -, -, -, -, -, -, -, -, -, -, e0, e1, e2⟩ := idx_facts1 t
    exact ⟨e0, e1, e2⟩
  have hy0 : (y 0).val < 1 := (y 0).isLt
  have hy1 : (y 1).val < 2048 := (y 1).isLt
  have hy2 : (y 2).val < 64 := (y 2).isLt
  have hyE : y = ix3 (0 : Fin 1) (⟨(y 1).val, hy1⟩ : Fin 2048) (⟨(y 2).val, hy2⟩ : Fin 64) := funext fun a => Fin.ext (by
    match a with
    | ⟨0, _⟩ => show (y 0).val = 0; omega
    | ⟨1, _⟩ => rfl
    | ⟨2, _⟩ => rfl)
  show k1_pay2 (F := Ideal) (iblk1 V c 0 t) (iblk1 V c 4 t) (gv1 (iblk1 V c 1 t') (iblk1 V c 2 t')) (fn1 (iblk1 V c 3 t')) y
      = G1 V c (((cfg1.win 5).blk t).view.emb y)
  refine (congrArg _ hyE).trans ((tile_at V c t t' hb _ _).trans (congrArg (G1 V c) (funext fun a => Fin.ext ?_)))
  match a with
  | ⟨0, _⟩ => show t.val / 2 = win1_5.index t (0 : Fin 3) * 1 + 1 * (y 0).val; omega
  | ⟨1, _⟩ => show t.val % 2 * 2048 + (y 1).val = win1_5.index t (1 : Fin 3) * 2048 + 1 * (y 1).val; omega
  | ⟨2, _⟩ => show (y 2).val = win1_5.index t (2 : Fin 3) * 64 + 1 * (y 2).val; omega

/-! ## The blocks cover the result array -/

/-- An index of the array is in point t's block iff each coordinate is in the block's range on its axis. -/
theorem mem_blk5 (t : Fin cfg1.N) (i : S64x4096x64.Idx) :
    i ∈ ((cfg1.win 5).blk t).view.set ↔ ∀ a : Fin 3, win1_5.index t a * S1x2048x64.size a ≤ (i a).val ∧ (i a).val < win1_5.index t a * S1x2048x64.size a + S1x2048x64.size a := by
  show i ∈ ((View.whole main_v9).slice (win1_5.rect t)).set ↔ _
  rw [View.set_slice_whole, Rect.mem_set_unit]
  exact Iff.rfl

/-- Row n of batch b lies in the block of point 2·b + n / 2048, which is written back. -/
theorem cover5 (i : S64x4096x64.Idx) :
    ∃ t : Fin cfg1.N, (cfg1.win 5).flush t = true ∧ i ∈ ((cfg1.win 5).blk t).view.set := by
  have h0 : (i 0).val < 64 := (i 0).isLt
  have h1 : (i 1).val < 4096 := (i 1).isLt
  have h2 : (i 2).val < 64 := (i 2).isLt
  have hN : 2 * (i 0).val + (i 1).val / 2048 < cfg1.N := by rw [show cfg1.N = 128 from N_1]; omega
  refine ⟨⟨2 * (i 0).val + (i 1).val / 2048, hN⟩, flush1_5 _, ?_⟩
  rw [mem_blk5]
  obtain ⟨-, -, -, -, -, -, -, -, -, -, -, -, -, -, e0, e1, e2⟩ := idx_facts1 ⟨2 * (i 0).val + (i 1).val / 2048, hN⟩
  have e0' : win1_5.index ⟨2 * (i 0).val + (i 1).val / 2048, hN⟩ (0 : Fin 3) = (2 * (i 0).val + (i 1).val / 2048) / 2 := e0
  have e1' : win1_5.index ⟨2 * (i 0).val + (i 1).val / 2048, hN⟩ (1 : Fin 3) = (2 * (i 0).val + (i 1).val / 2048) % 2 := e1
  intro a
  match a with
  | ⟨0, _⟩ =>
    show win1_5.index ⟨2 * (i 0).val + (i 1).val / 2048, hN⟩ (0 : Fin 3) * 1 ≤ (i 0).val ∧ (i 0).val < win1_5.index ⟨2 * (i 0).val + (i 1).val / 2048, hN⟩ (0 : Fin 3) * 1 + 1
    omega
  | ⟨1, _⟩ =>
    show win1_5.index ⟨2 * (i 0).val + (i 1).val / 2048, hN⟩ (1 : Fin 3) * 2048 ≤ (i 1).val ∧ (i 1).val < win1_5.index ⟨2 * (i 0).val + (i 1).val / 2048, hN⟩ (1 : Fin 3) * 2048 + 2048
    omega
  | ⟨2, _⟩ =>
    show win1_5.index ⟨2 * (i 0).val + (i 1).val / 2048, hN⟩ (2 : Fin 3) * 64 ≤ (i 2).val ∧ (i 2).val < win1_5.index ⟨2 * (i 0).val + (i 1).val / 2048, hN⟩ (2 : Fin 3) * 64 + 64
    omega

/-! ## The array after the region -/

/-- THE RESULT ARRAY after the region's 128 points, entry by entry. -/
theorem final1 (c : Dev nD) (i : S64x4096x64.Idx) :
    (dat1 (F := Ideal) V c).arrAt 5 cfg1.N i
      = (∑ h : Fin 256, Cert.Spec.glu
            (∑ d : Fin 64, Cert.Spec.xnorm (V c main_arg0) (fun j => V c main_v8 (ix2 0 (j 0))) (i 0) (i 1) d * Cert.Spec.colNorm (fun d h => V c main_v3 (ix3 (i 0) d h)) d h)
            (∑ d : Fin 64, Cert.Spec.xnorm (V c main_arg0) (fun j => V c main_v8 (ix2 0 (j 0))) (i 0) (i 1) d * Cert.Spec.colNorm (fun d h => V c main_v5 (ix3 (i 0) d h)) d h)
          * Cert.Spec.colNorm (fun h d => V c main_v7 (ix3 (i 0) h d)) h (i 2))
        + V c main_arg0 i :=
  congrFun ((dat1 (F := Ideal) V c).arrAt_eq_of_cover 5 (G1 V c) (fun t _ => flushed_eq V c t) cover5) i

end Cert.KernelIdeal.Val1

end
-- ==== Proof.Val.Bridge.lean ====
/-
  The idealized kernel's result array is the specification's function of the five arguments.

  Region 1's final output array, read at (b, n, d), is the gated-MLP formula over the arrays region 1 is entered
  with (Val/V1.lean). Those are: x itself; the scale reshaped; and the three weight arrays, which the host
  operations cut out of the array P that region 0 leaves (Val/Glue.lean), P being s·W + bias entry by entry
  (Val/V0.lean) over s, W and the reshaped bias. Substituting each reading gives Spec.result.
-/
import proofs.«136581_j63823214019112_2_alg».proof.Proof.Val.Glue
import proofs.«136581_j63823214019112_2_alg».proof.Proof.Val.V0
import proofs.«136581_j63823214019112_2_alg».proof.Proof.Val.V1
import proofs.«136581_j63823214019112_2_alg».proof.Proof.Spec

set_option maxRecDepth 16384

noncomputable section

namespace Cert.KernelIdeal.Bridge

open Idealize.ShloMosaic Idealize.ShloMosaic.TcCoe Idealize.ShloMosaic.ValueIdx
open Idealize.SL.Sem
open Cert.KernelIdeal Cert.KernelIdeal.Hand Cert.KernelIdeal.Glue
open Cert.KernelIdeal.Gen hiding V0 V1 V2 V3 V4

variable (m : (ℓ : Loc nD τ sig) → Buf (Elt Ideal) ℓ)

/-- The array region 0 leaves, at (b, j): the generated parameter P[b, j] of the arguments. -/
theorem params_eq (c : Dev nD) (b : Fin 64) (j : Fin 49152) :
    P0 m c (ix2 b j) = Cert.Spec.params (m ((c : Thread nD τ).loc main_arg1)) (m ((c : Thread nD τ).loc main_arg2))
      (m ((c : Thread nD τ).loc main_arg3)) b j := by
  have hb : (fun j' : (⟨1, ![49152]⟩ : Shape).Idx => V1 m c main_v0 (ix2 (0 : Fin 1) (j' 0))) = m ((c : Thread nD τ).loc main_arg3) :=
    funext fun j' => (V1_v0_apply m c (j' 0)).trans (congrArg _ (eq_ix1 j').symm)
  have h := Cert.KernelIdeal.Val0.final0 (V1 m) c (ix2 b j)
  rw [hb, V1_arg1, V1_arg2] at h
  exact h

/-- The scale row region 1 reads is the scale argument. -/
theorem scale_eq (c : Dev nD) :
    (fun j : (⟨1, ![64]⟩ : Shape).Idx => V3 m c main_v8 (ix2 (0 : Fin 1) (j 0))) = m ((c : Thread nD τ).loc main_arg4) :=
  funext fun j => (V3_v8_apply m c (j 0)).trans (congrArg _ (eq_ix1 j).symm)

/-- The three weight blocks of batch b that region 1 reads are the specification's cuts of the parameter row. -/
theorem gate_eq (c : Dev nD) (b : Fin 64) :
    (fun (d : Fin 64) (h : Fin 256) => V3 m c main_v3 (ix3 b d h))
      = Cert.Spec.gateW (Cert.Spec.params (m ((c : Thread nD τ).loc main_arg1)) (m ((c : Thread nD τ).loc main_arg2)) (m ((c : Thread nD τ).loc main_arg3)) b) :=
  funext fun d => funext fun h => (V3_v3_apply m c b d h).trans (params_eq m c b _)
theorem value_eq (c : Dev nD) (b : Fin 64) :
    (fun (d : Fin 64) (h : Fin 256) => V3 m c main_v5 (ix3 b d h))
      = Cert.Spec.valueW (Cert.Spec.params (m ((c : Thread nD τ).loc main_arg1)) (m ((c : Thread nD τ).loc main_arg2)) (m ((c : Thread nD τ).loc main_arg3)) b) :=
  funext fun d => funext fun h => (V3_v5_apply m c b d h).trans (params_eq m c b _)
theorem proj_eq (c : Dev nD) (b : Fin 64) :
    (fun (h : Fin 256) (d : Fin 64) => V3 m c main_v7 (ix3 b h d))
      = Cert.Spec.projW (Cert.Spec.params (m ((c : Thread nD τ).loc main_arg1)) (m ((c : Thread nD τ).loc main_arg2)) (m ((c : Thread nD τ).loc main_arg3)) b) :=
  funext fun h => funext fun d => (V3_v7_apply m c b h d).trans (params_eq m c b _)

/-- The kernel's result array is the specification's function of the arguments. -/
theorem kernel_result (c : Dev nD) :
    (dat1 (F := Ideal) (V3 m) c).arrAt 5 cfg1.N
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, n, d, rfl⟩ : ∃ (b : Fin 64) (n : Fin 4096) (d : Fin 64), i = ix3 b n d := ⟨i 0, i 1, i 2, eq_ix3 i⟩
  refine (Cert.KernelIdeal.Val1.final1 (V3 m) c (ix3 b n d)).trans ?_
  show (∑ h : Fin 256, Cert.Spec.glu
        (∑ d' : Fin 64, Cert.Spec.xnorm (V3 m c main_arg0) (fun j => V3 m c main_v8 (ix2 (0 : Fin 1) (j 0))) b n d' * Cert.Spec.colNorm (fun d h => V3 m c main_v3 (ix3 b d h)) d' h)
        (∑ d' : Fin 64, Cert.Spec.xnorm (V3 m c main_arg0) (fun j => V3 m c main_v8 (ix2 (0 : Fin 1) (j 0))) b n d' * Cert.Spec.colNorm (fun d h => V3 m c main_v5 (ix3 b d h)) d' h)
          * Cert.Spec.colNorm (fun h d => V3 m c main_v7 (ix3 b h d)) h d) + V3 m c main_arg0 (ix3 b n d) = _
  rw [scale_eq m c, gate_eq m c b, value_eq m c b, proj_eq m c b, V3_arg0 m c]
  rfl

end Cert.KernelIdeal.Bridge

end
-- ==== Proof.Val.RefParams.lean ====
/-
  The parameter array of the reference read at (b, j): the contraction of s with W over the 1024 inputs, plus the
  bias at j.
-/
import proofs.«136581_j63823214019112_2_alg».proof.Proof.Gen.ReferenceIdeal.Read
import proofs.«136581_j63823214019112_2_alg».proof.Proof.Spec

noncomputable section

namespace Cert.ReferenceIdeal.RefValue

open Cert.ReferenceIdeal Cert.ReferenceIdeal.Read Cert.Spec Idealize.ShloMosaic Idealize.ShloMosaic.ValueIdx
open scoped BigOperators

/-- The two operand indices of the contraction at (b, j), and the bias index, by coordinates. -/
theorem lidx_v0 (b : Fin 64) (j : Fin 49152) (k : Fin 1024) : lidx_main_v0 (ix2 b j) k = ix2 b k :=
  funext fun a => Fin.ext (by match a with | ⟨0, _⟩ => rfl | ⟨1, _⟩ => rfl)
theorem ridx_v0 (b : Fin 64) (j : Fin 49152) (k : Fin 1024) : ridx_main_v0 (ix2 b j) k = ix2 k j :=
  funext fun a => Fin.ext (by match a with | ⟨0, _⟩ => rfl | ⟨1, _⟩ => rfl)
theorem idx_v1_v2 (b : Fin 64) (j : Fin 49152) : idx_main_v1 (idx_main_v2 (ix2 b j)) = ix1 j :=
  funext fun a => Fin.ext (by match a with | ⟨0, _⟩ => rfl)

/-- The parameter array at (b, j) is s · W + bias there. -/
theorem v3_at (x1 : (⟨S64x1024, .f32⟩ : BufTy).Contents (Elt Ideal)) (x2 : (⟨S1024x49152, .f32⟩ : BufTy).Contents (Elt Ideal))
    (x3 : (⟨S49152, .f32⟩ : BufTy).Contents (Elt Ideal)) (b : Fin 64) (j : Fin 49152) :
    val_main_v3 (F := Ideal) x1 x2 x3 (ix2 b j) = params x1 x2 x3 b j := by
  rw [val_main_v3_apply, val_main_v0_apply, val_main_v2_apply, val_main_v1_apply, idx_v1_v2]
  simp only [lidx_v0, ridx_v0, Ideal.addf_def]
  rfl

end Cert.ReferenceIdeal.RefValue

end
-- ==== Proof.Val.RefBlocks.lean ====
/-
  The three weight blocks of the reference, read by coordinates: the slice at offset 0, 16384 or 32768 of the
  parameter row of batch b, reshaped to [64, 256] (twice) or [256, 64], is the parameter at the row-major position
  of the coordinates plus the offset.
-/
import proofs.«136581_j63823214019112_2_alg».proof.Proof.Val.RefParams

noncomputable section

namespace Cert.ReferenceIdeal.RefValue

open Cert.ReferenceIdeal Cert.ReferenceIdeal.Read Cert.Spec Idealize.ShloMosaic Idealize.ShloMosaic.ValueIdx
open scoped BigOperators

/-- The parameter index a gate-weight coordinate (b, d, h) reads: row b, column d·256 + h. -/
theorem idx_v4_v7 (b : Fin 64) (d : Fin 64) (h : Fin 256) :
    idx_main_v4 (idx_main_v7 (ix3 b d h)) = ix2 b (⟨d.val * 256 + h.val, by omega⟩ : Fin 49152) :=
  funext fun a => Fin.ext (by
    have hb := b.isLt; have hd := d.isLt; have hh := h.isLt
    match a with
    | ⟨0, _⟩ => show ((b.val * 64 + d.val) * 256 + h.val) / 16384 = b.val; omega
    | ⟨1, _⟩ => show ((b.val * 64 + d.val) * 256 + h.val) % 16384 = d.val * 256 + h.val; omega)

/-- The parameter index a value-weight coordinate (b, d, h) reads: row b, column 16384 + d·256 + h. -/
theorem idx_v5_v16 (b : Fin 64) (d : Fin 64) (h : Fin 256) :
    idx_main_v5 (idx_main_v16 (ix3 b d h)) = ix2 b (⟨16384 + (d.val * 256 + h.val), by omega⟩ : Fin 49152) :=
  funext fun a => Fin.ext (by
    have hb := b.isLt; have hd := d.isLt; have hh := h.isLt
    match a with
    | ⟨0, _⟩ => show ((b.val * 64 + d.val) * 256 + h.val) / 16384 = b.val; omega
    | ⟨1, _⟩ => show 16384 + ((b.val * 64 + d.val) * 256 + h.val) % 16384 = 16384 + (d.val * 256 + h.val); omega)

/-- The parameter index a projection-weight coordinate (b, h, d) reads: row b, column 32768 + h·64 + d. -/
theorem idx_v6_v25 (b : Fin 64) (h : Fin 256) (d : Fin 64) :
    idx_main_v6 (idx_main_v25 (ix3 b h d)) = ix2 b (⟨32768 + (h.val * 64 + d.val), by omega⟩ : Fin 49152) :=
  funext fun a => Fin.ext (by
    have hb := b.isLt; have hd := d.isLt; have hh := h.isLt
    match a with
    | ⟨0, _⟩ => show ((b.val * 256 + h.val) * 64 + d.val) / 16384 = b.val; omega
    | ⟨1, _⟩ => show 32768 + ((b.val * 256 + h.val) * 64 + d.val) % 16384 = 32768 + (h.val * 64 + d.val); omega)

section
variable (x1 : (⟨S64x1024, .f32⟩ : BufTy).Contents (Elt Ideal)) (x2 : (⟨S1024x49152, .f32⟩ : BufTy).Contents (Elt Ideal))
  (x3 : (⟨S49152, .f32⟩ : BufTy).Contents (Elt Ideal))

/-- The gate weights at (b, d, h). -/
theorem v7_at (b : Fin 64) (d : Fin 64) (h : Fin 256) :
    val_main_v7 (F := Ideal) x1 x2 x3 (ix3 b d h) = gateW (params x1 x2 x3 b) d h := by
  rw [val_main_v7_apply, val_main_v4_apply, idx_v4_v7, v3_at]
  rfl

/-- The value weights at (b, d, h). -/
theorem v16_at (b : Fin 64) (d : Fin 64) (h : Fin 256) :
    val_main_v16 (F := Ideal) x1 x2 x3 (ix3 b d h) = valueW (params x1 x2 x3 b) d h := by
  rw [val_main_v16_apply, val_main_v5_apply, idx_v5_v16, v3_at]
  rfl

/-- The projection weights at (b, h, d). -/
theorem v25_at (b : Fin 64) (h : Fin 256) (d : Fin 64) :
    val_main_v25 (F := Ideal) x1 x2 x3 (ix3 b h d) = projW (params x1 x2 x3 b) h d := by
  rw [val_main_v25_apply, val_main_v6_apply, idx_v6_v25, v3_at]
  rfl

end

end Cert.ReferenceIdeal.RefValue

end
-- ==== Proof.Val.RefColNorm.lean ====
/-
  The three normalised weight blocks of the reference at an index: each entry divided by the larger of the Euclidean
  norm of its column (along the block's middle axis) and ε.
-/
import proofs.«136581_j63823214019112_2_alg».proof.Proof.Val.RefBlocks

noncomputable section

namespace Cert.ReferenceIdeal.RefValue

open Cert.ReferenceIdeal Cert.ReferenceIdeal.Read Cert.Spec Idealize.ShloMosaic Idealize.ShloMosaic.ValueIdx
open scoped BigOperators

section
variable (x1 : (⟨S64x1024, .f32⟩ : BufTy).Contents (Elt Ideal)) (x2 : (⟨S1024x49152, .f32⟩ : BufTy).Contents (Elt Ideal))
  (x3 : (⟨S49152, .f32⟩ : BufTy).Contents (Elt Ideal))

/-- The column entries the sum of squares at (b, ·, h) reads, by coordinates. -/
theorem idx_v9_v10_v14 (b : Fin 64) (d : Fin 64) (h : Fin 256) (k : Fin 64) :
    idx_main_v9 (idx_main_v10 (idx_main_v14 (ix3 b d h))) k = ix3 b k h :=
  funext fun a => Fin.ext (by match a with | ⟨0, _⟩ => rfl | ⟨1, _⟩ => rfl | ⟨2, _⟩ => rfl)

/-- The normalised gate weights at (b, d, h): the entry over the larger of its column's norm and ε. -/
theorem v15_at (b : Fin 64) (d : Fin 64) (h : Fin 256) :
    val_main_v15 (F := Ideal) x1 x2 x3 (ix3 b d h) = colNorm (gateW (params x1 x2 x3 b)) d h := by
  rw [val_main_v15_apply, val_main_v14_apply, val_main_v13_apply, val_main_v11_apply, val_main_v10_apply,
    val_main_v9_apply, val_main_v12_apply, val_main_cst_0_apply, val_main_cst_apply, v7_at]
  simp only [val_main_v8_apply, idx_v9_v10_v14, v7_at, Ideal.mulf_def, Ideal.hostDivf_def,
    Ideal.hostUnary_sqrt_def, Ideal.maximumf_def, Ideal.ofBits_def, Ideal.ofBits_zero_f32, zero_add]
  rfl

/-- The column entries the sum of squares at (b, ·, h) reads, by coordinates. -/
theorem idx_v18_v19_v23 (b : Fin 64) (d : Fin 64) (h : Fin 256) (k : Fin 64) :
    idx_main_v18 (idx_main_v19 (idx_main_v23 (ix3 b d h))) k = ix3 b k h :=
  funext fun a => Fin.ext (by match a with | ⟨0, _⟩ => rfl | ⟨1, _⟩ => rfl | ⟨2, _⟩ => rfl)

/-- The normalised value weights at (b, d, h): the entry over the larger of its column's norm and ε. -/
theorem v24_at (b : Fin 64) (d : Fin 64) (h : Fin 256) :
    val_main_v24 (F := Ideal) x1 x2 x3 (ix3 b d h) = colNorm (valueW (params x1 x2 x3 b)) d h := by
  rw [val_main_v24_apply, val_main_v23_apply, val_main_v22_apply, val_main_v20_apply, val_main_v19_apply,
    val_main_v18_apply, val_main_v21_apply, val_main_cst_2_apply, val_main_cst_1_apply, v16_at]
  simp only [val_main_v17_apply, idx_v18_v19_v23, v16_at, Ideal.mulf_def, Ideal.hostDivf_def,
    Ideal.hostUnary_sqrt_def, Ideal.maximumf_def, Ideal.ofBits_def, Ideal.ofBits_zero_f32, zero_add]
  rfl

/-- The column entries the sum of squares at (b, ·, d) reads, by coordinates. -/
theorem idx_v27_v28_v32 (b : Fin 64) (h : Fin 256) (d : Fin 64) (k : Fin 256) :
    idx_main_v27 (idx_main_v28 (idx_main_v32 (ix3 b h d))) k = ix3 b k d :=
  funext fun a => Fin.ext (by match a with | ⟨0, _⟩ => rfl | ⟨1, _⟩ => rfl | ⟨2, _⟩ => rfl)

/-- The normalised projection weights at (b, h, d): the entry over the larger of its column's norm and ε. -/
theorem v33_at (b : Fin 64) (h : Fin 256) (d : Fin 64) :
    val_main_v33 (F := Ideal) x1 x2 x3 (ix3 b h d) = colNorm (projW (params x1 x2 x3 b)) h d := by
  rw [val_main_v33_apply, val_main_v32_apply, val_main_v31_apply, val_main_v29_apply, val_main_v28_apply,
    val_main_v27_apply, val_main_v30_apply, val_main_cst_4_apply, val_main_cst_3_apply, v25_at]
  simp only [val_main_v26_apply, idx_v27_v28_v32, v25_at, Ideal.mulf_def, Ideal.hostDivf_def,
    Ideal.hostUnary_sqrt_def, Ideal.maximumf_def, Ideal.ofBits_def, Ideal.ofBits_zero_f32, zero_add]
  rfl

end

end Cert.ReferenceIdeal.RefValue

end
-- ==== Proof.Val.RefNorm.lean ====
/-
  The RMS-normalised, scaled row of the reference at (b, n, d): x there, times the reciprocal square root of the
  mean of the row's squares plus ε', times the scale at d.
-/
import proofs.«136581_j63823214019112_2_alg».proof.Proof.Gen.ReferenceIdeal.Read
import proofs.«136581_j63823214019112_2_alg».proof.Proof.Spec

noncomputable section

namespace Cert.ReferenceIdeal.RefValue

open Cert.ReferenceIdeal Cert.ReferenceIdeal.Read Cert.Spec Idealize.ShloMosaic Idealize.ShloMosaic.ValueIdx
open scoped BigOperators

/-- The row entries the sum of squares of row (b, n) reads, and the scale entry of column d, by coordinates. -/
theorem idx_v35_v36_v42 (b : Fin 64) (n : Fin 4096) (d : Fin 64) (k : Fin 64) :
    idx_main_v35 (idx_main_v36 (idx_main_v42 (ix3 b n d))) k = ix3 b n k :=
  funext fun a => Fin.ext (by match a with | ⟨0, _⟩ => rfl | ⟨1, _⟩ => rfl | ⟨2, _⟩ => rfl)
theorem idx_v44_v45 (b : Fin 64) (n : Fin 4096) (d : Fin 64) : idx_main_v44 (idx_main_v45 (ix3 b n d)) = ix1 d :=
  funext fun a => Fin.ext (by match a with | ⟨0, _⟩ => rfl)

/-- The normalised, scaled input at (b, n, d). -/
theorem v46_at (x0 : (⟨S64x4096x64, .f32⟩ : BufTy).Contents (Elt Ideal)) (x4 : (⟨S64, .f32⟩ : BufTy).Contents (Elt Ideal))
    (b : Fin 64) (n : Fin 4096) (d : Fin 64) :
    val_main_v46 (F := Ideal) x0 x4 (ix3 b n d) = xnorm x0 x4 b n d := by
  rw [val_main_v46_apply, val_main_v43_apply, val_main_v42_apply, val_main_v41_apply, val_main_v40_apply, val_main_v38_apply,
    val_main_v36_apply, val_main_v35_apply, val_main_v37_apply, val_main_v39_apply, val_main_v45_apply, val_main_v44_apply,
    val_main_cst_5_apply, val_main_cst_6_apply, val_main_cst_7_apply, idx_v44_v45]
  simp only [val_main_v34_apply, idx_v35_v36_v42, Ideal.mulf_def, Ideal.addf_def, Ideal.hostDivf_def, Ideal.hostUnary_rsqrt_def,
    Ideal.ofBits_def, Ideal.ofBits_zero_f32, zero_add]
  rfl

end Cert.ReferenceIdeal.RefValue

end
-- ==== Proof.Val.RefHidden.lean ====
/-
  The two pre-activations and the hidden activation of the reference at (b, n, h). The reference spells the
  logistic function as 1 / (1 + exp(−g)) with the float word of 1.0, which denotes the extended real 1.
-/
import proofs.«136581_j63823214019112_2_alg».proof.Proof.Val.RefColNorm
import proofs.«136581_j63823214019112_2_alg».proof.Proof.Val.RefNorm
import Idealize.ShloMosaic.Lib.IdealHost

noncomputable section

namespace Cert.ReferenceIdeal.RefValue

open Cert.ReferenceIdeal Cert.ReferenceIdeal.Read Cert.Spec Idealize.ShloMosaic Idealize.ShloMosaic.ValueIdx
open scoped BigOperators

section
variable (x0 : (⟨S64x4096x64, .f32⟩ : BufTy).Contents (Elt Ideal)) (x1 : (⟨S64x1024, .f32⟩ : BufTy).Contents (Elt Ideal))
  (x2 : (⟨S1024x49152, .f32⟩ : BufTy).Contents (Elt Ideal)) (x3 : (⟨S49152, .f32⟩ : BufTy).Contents (Elt Ideal))
  (x4 : (⟨S64, .f32⟩ : BufTy).Contents (Elt Ideal))

/-- The operand entries the gate contraction at (b, n, h) reads, by coordinates. -/
theorem lidx_v47 (b : Fin 64) (n : Fin 4096) (h : Fin 256) (k : Fin 64) : lidx_main_v47 (ix3 b n h) k = ix3 b n k :=
  funext fun a => Fin.ext (by match a with | ⟨0, _⟩ => rfl | ⟨1, _⟩ => rfl | ⟨2, _⟩ => rfl)
theorem ridx_v47 (b : Fin 64) (n : Fin 4096) (h : Fin 256) (k : Fin 64) : ridx_main_v47 (ix3 b n h) k = ix3 b k h :=
  funext fun a => Fin.ext (by match a with | ⟨0, _⟩ => rfl | ⟨1, _⟩ => rfl | ⟨2, _⟩ => rfl)

/-- The gate pre-activation at (b, n, h): the normalised row against the normalised gate weights. -/
theorem v47_at (b : Fin 64) (n : Fin 4096) (h : Fin 256) :
    val_main_v47 (F := Ideal) x0 x1 x2 x3 x4 (ix3 b n h)
      = ∑ d : Fin 64, xnorm x0 x4 b n d * colNorm (gateW (params x1 x2 x3 b)) d h := by
  rw [val_main_v47_apply]
  simp only [lidx_v47, ridx_v47, v46_at, v15_at]

/-- The operand entries the value contraction at (b, n, h) reads, by coordinates. -/
theorem lidx_v48 (b : Fin 64) (n : Fin 4096) (h : Fin 256) (k : Fin 64) : lidx_main_v48 (ix3 b n h) k = ix3 b n k :=
  funext fun a => Fin.ext (by match a with | ⟨0, _⟩ => rfl | ⟨1, _⟩ => rfl | ⟨2, _⟩ => rfl)
theorem ridx_v48 (b : Fin 64) (n : Fin 4096) (h : Fin 256) (k : Fin 64) : ridx_main_v48 (ix3 b n h) k = ix3 b k h :=
  funext fun a => Fin.ext (by match a with | ⟨0, _⟩ => rfl | ⟨1, _⟩ => rfl | ⟨2, _⟩ => rfl)

/-- The value pre-activation at (b, n, h): the normalised row against the normalised value weights. -/
theorem v48_at (b : Fin 64) (n : Fin 4096) (h : Fin 256) :
    val_main_v48 (F := Ideal) x0 x1 x2 x3 x4 (ix3 b n h)
      = ∑ d : Fin 64, xnorm x0 x4 b n d * colNorm (valueW (params x1 x2 x3 b)) d h := by
  rw [val_main_v48_apply]
  simp only [lidx_v48, ridx_v48, v46_at, v24_at]

/-- The hidden activation at (b, n, h): gate · logistic(gate) · value. -/
theorem v50_at (b : Fin 64) (n : Fin 4096) (h : Fin 256) :
    val_main_v50 (F := Ideal) x0 x1 x2 x3 x4 (ix3 b n h) = hid x0 x4 (params x1 x2 x3 b) b n h := by
  rw [val_main_v50_apply, val_main_v49_apply, val_main_call0_v5_apply, val_main_call0_v4_apply, val_main_call0_cst_0_apply,
    val_main_call0_v3_apply, val_main_call0_v2_apply, val_main_call0_cst_apply, val_main_call0_v1_apply,
    val_main_call0_v0_apply, v47_at, v48_at]
  simp only [Ideal.mulf_def, Ideal.addf_def, Ideal.hostDivf_def, Ideal.hostUnary_exp_def, Ideal.hostNegf_def, Ideal.negf_def,
    Ideal.ofBits_def, Ideal.ofBits_one_f32]
  rfl

end

end Cert.ReferenceIdeal.RefValue

end
-- ==== Proof.Val.Ref.lean ====
/-
  The reference's result at the ideal instance is the specified function of the five argument arrays: at (b, n, d) the
  hidden activations of row (b, n) against the normalised projection weights of batch b, plus the input there.
-/
import proofs.«136581_j63823214019112_2_alg».proof.Proof.Val.RefHidden

noncomputable section

namespace Cert.ReferenceIdeal.RefValue

open Cert.ReferenceIdeal Cert.ReferenceIdeal.Read Cert.Spec Idealize.ShloMosaic Idealize.ShloMosaic.ValueIdx
open scoped BigOperators

section
variable (x0 : (⟨S64x4096x64, .f32⟩ : BufTy).Contents (Elt Ideal)) (x1 : (⟨S64x1024, .f32⟩ : BufTy).Contents (Elt Ideal))
  (x2 : (⟨S1024x49152, .f32⟩ : BufTy).Contents (Elt Ideal)) (x3 : (⟨S49152, .f32⟩ : BufTy).Contents (Elt Ideal))
  (x4 : (⟨S64, .f32⟩ : BufTy).Contents (Elt Ideal))

/-- The operand entries the projection contraction at (b, n, d) reads, by coordinates. -/
theorem lidx_v51 (b : Fin 64) (n : Fin 4096) (d : Fin 64) (k : Fin 256) : lidx_main_v51 (ix3 b n d) k = ix3 b n k :=
  funext fun a => Fin.ext (by match a with | ⟨0, _⟩ => rfl | ⟨1, _⟩ => rfl | ⟨2, _⟩ => rfl)
theorem ridx_v51 (b : Fin 64) (n : Fin 4096) (d : Fin 64) (k : Fin 256) : ridx_main_v51 (ix3 b n d) k = ix3 b k d :=
  funext fun a => Fin.ext (by match a with | ⟨0, _⟩ => rfl | ⟨1, _⟩ => rfl | ⟨2, _⟩ => rfl)

/-- The result at (b, n, d). -/
theorem v52_at (b : Fin 64) (n : Fin 4096) (d : Fin 64) :
    val_main_v52 (F := Ideal) x0 x1 x2 x3 x4 (ix3 b n d) = outOf x0 x4 (params x1 x2 x3 b) b n d := by
  rw [val_main_v52_apply, val_main_v51_apply]
  simp only [lidx_v51, ridx_v51, v50_at, v33_at, Ideal.addf_def]
  rfl

end

/-- The reference's result array is the specified function of the arguments. -/
theorem ref_eq (x0 : (⟨S64x4096x64, .f32⟩ : BufTy).Contents (Elt Ideal)) (x1 : (⟨S64x1024, .f32⟩ : BufTy).Contents (Elt Ideal)) (x2 : (⟨S1024x49152, .f32⟩ : BufTy).Contents (Elt Ideal)) (x3 : (⟨S49152, .f32⟩ : BufTy).Contents (Elt Ideal)) (x4 : (⟨S64, .f32⟩ : BufTy).Contents (Elt Ideal)) :
    Cert.ReferenceIdeal.Read.val_main_v52 (F := Ideal) x0 x1 x2 x3 x4 = Cert.Spec.result x0 x1 x2 x3 x4 := by
  funext i
  obtain ⟨b, n, d, rfl⟩ : ∃ (b : Fin 64) (n : Fin 4096) (d : Fin 64), i = ix3 b n d := ⟨i 0, i 1, i 2, eq_ix3 i⟩
  rw [v52_at]
  rfl

end Cert.ReferenceIdeal.RefValue

end
-- ==== Proof.lean ====
/-
  The certificate of one gated-MLP block with generated weights.

  Both programs compute, from x [64, 4096, 64], s [64, 1024], W [1024, 49152], a bias [49152] and a scale [64],
  the parameters P = s·W + bias; three weight blocks per batch cut out of P and normalised column by column; the
  RMS-normalised, scaled rows of x; gate and value pre-activations; gate · logistic(gate) · value; its product
  with the normalised projection block; plus x. The kernel does this in two regions — the parameter product tiled
  over columns, then one pass per batch and row tile that keeps the batch's normalised weights in scratch from its
  first tile to its second — and the reference as one straight line of whole-array operations. On the extended reals the
  two results are the same function of the arguments, index by index (Spec.lean): the only differences are the
  order and grouping of finite sums, a fused product whose two halves are read back apart, and the logistic
  written out as 1 / (1 + exp(−·)) on the reference's side.

  Frames: each kernel program's run is composed from its two regions' point-by-point obligations and the host
  operations between them (KI/ for the idealized program, K/ for the word-level one: one text at two instances);
  the reference's is its straight-line run. The idealization rewrote nothing, so its sanction is trivial.
-/
import proofs.«136581_j63823214019112_2_alg».proof.Defs
import proofs.«136581_j63823214019112_2_alg».proof.Proof.Gen.Kernel
import proofs.«136581_j63823214019112_2_alg».proof.Proof.Gen.KernelIdeal
import proofs.«136581_j63823214019112_2_alg».proof.Proof.Gen.ReferenceIdeal
import proofs.«136581_j63823214019112_2_alg».proof.Proof.Gen.ReferenceIdeal.Read
import proofs.«136581_j63823214019112_2_alg».proof.Proof.Gen.Pre_finite_inputs
import proofs.«136581_j63823214019112_2_alg».proof.Proof.K.Run
import proofs.«136581_j63823214019112_2_alg».proof.Proof.KI.Run
import proofs.«136581_j63823214019112_2_alg».proof.Proof.Val.Bridge
import proofs.«136581_j63823214019112_2_alg».proof.Proof.Val.Ref

noncomputable section

namespace Cert.Proof

open Idealize.ShloMosaic Idealize.SL.Sem

/-- The word-level kernel runs and leaves its arguments alone. -/
theorem frame_k : Cert.frame_Kernel := fun m ρ _ =>
  (θ_run Cert.Kernel.defs _ _).mono (fun _ h c => (h c).2) (Cert.Kernel.Hand.run (F := Bits) m ρ)

/-- So does the idealized kernel. -/
theorem frame_ki : Cert.frame_KernelIdeal := fun m ρ _ =>
  (θ_run Cert.KernelIdeal.defs _ _).mono (fun _ h c => (h c).2) (Cert.KernelIdeal.Hand.run (F := Ideal) m ρ)

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the one function
    of the arguments: the kernel's run names it as region 1's final output array, which is that function
    (Val/Bridge.lean); the reference's run names it as its composed term, which is that function too (Val/Ref.lean). -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.Bridge.kernel_result m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
